-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x1024 : Shape := ⟨3, ![2048, 2, 1024]⟩
abbrev S1024x1024 : Shape := ⟨2, ![1024, 1024]⟩
abbrev S1024 : Shape := ⟨1, ![1024]⟩
abbrev S_ : Shape := ⟨0, ![]⟩

class Facts : Prop where
  bcast_S_S2048x2x1024 : S_.BroadcastsInDim S2048x2x1024 (![] : Fin 0 → Fin S2048x2x1024.rank)
  reducesTo_S2048x2x1024_S_d0_1_2 : S2048x2x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x2x1024 .f32) (main_arg1 : FVec F S2048x2x1024 .f32) (main_arg2 : FVec F S2048x2x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2048x2x1024 .f32 := Host.absf main_arg0
  let main_cst : FVec F S_ .f32 := constant S_ .f32 0x7F800000#32
  let main_v1 : FVec F S2048x2x1024 .f32 := broadcastInDim S2048x2x1024 ![] bcast_S_S2048x2x1024 main_cst
  let main_v2 : IVec S2048x2x1024 1 := cmpf .olt main_v0 main_v1
  let main_c : IVec S_ 1 := constantI S_ 1 1#1
  let main_v3 : IVec S_ 1 := (fun x v => Host.reduce IntOp.andi x v reducesTo_S2048x2x1024_S_d0_1_2 h_S_) main_v2 main_c
  let main_v4 : FVec F S2048x2x1024 .f32 := Host.absf main_arg1
  let main_cst_0 : FVec F S_ .f32 := constant S_ .f32 0x7F800000#32
  let main_v5 : FVec F S2048x2x1024 .f32 := broadcastInDim S2048x2x1024 ![] bcast_S_S2048x2x1024 main_cst_0
  let main_v6 : IVec S2048x2x1024 1 := cmpf .olt main_v4 main_v5
  let main_c_1 : IVec S_ 1 := constantI S_ 1 1#1
  let main_v7 : IVec S_ 1 := (fun x v => Host.reduce IntOp.andi x v reducesTo_S2048x2x1024_S_d0_1_2 h_S_) main_v6 main_c_1
  let main_v8 : IVec S_ 1 := andi main_v3 main_v7
  let main_v9 : FVec F S2048x2x1024 .f32 := Host.absf main_arg2
  let main_cst_2 : FVec F S_ .f32 := constant S_ .f32 0x7F800000#32
  let main_v10 : FVec F S2048x2x1024 .f32 := broadcastInDim S2048x2x1024 ![] bcast_S_S2048x2x1024 main_cst_2
  let main_v11 : IVec S2048x2x1024 1 := cmpf .olt main_v9 main_v10
  let main_c_3 : IVec S_ 1 := constantI S_ 1 1#1
  let main_v12 : IVec S_ 1 := (fun x v => Host.reduce IntOp.andi x v reducesTo_S2048x2x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2048x2x1024 : Shape := ⟨3, ![2048, 2, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S2048x2x16x64 : Shape := ⟨4, ![2048, 2, 16, 64]⟩
abbrev S2x16x2048x64 : Shape := ⟨4, ![2, 16, 2048, 64]⟩
abbrev S2x16x64x2048 : Shape := ⟨4, ![2, 16, 64, 2048]⟩
abbrev S2x2048x2048 : Shape := ⟨3, ![2, 2048, 2048]⟩
abbrev S1x1x512x64 : Shape := ⟨4, ![1, 1, 512, 64]⟩
abbrev S1x1x64x2048 : Shape := ⟨4, ![1, 1, 64, 2048]⟩
abbrev S1x1x2048x64 : Shape := ⟨4, ![1, 1, 2048, 64]⟩
abbrev S1x512x2048 : Shape := ⟨3, ![1, 512, 2048]⟩
abbrev S512x64 : Shape := ⟨2, ![512, 64]⟩
abbrev S64x2048 : Shape := ⟨2, ![64, 2048]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 41
  | .vmem => 34
  | .smem => 0
  | _ => 0

abbrev bufTy : (tb : Table) → Fin (tcTables nBuf tb) → BufTy
  | .hbm, ⟨0, _⟩ => ⟨S2048x2x1024, .f32⟩
  | .hbm, ⟨1, _⟩ => ⟨S2048x2x1024, .f32⟩
  | .hbm, ⟨2, _⟩ => ⟨S2048x2x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S1024x1024, .f32⟩
  | .hbm, ⟨13, _⟩ => ⟨S1x1024, .f32⟩
  | .hbm, ⟨14, _⟩ => ⟨S4096x1024, .bf16⟩
  | .hbm, ⟨15, _⟩ => ⟨S2048x2x1024, .bf16⟩
  | .hbm, ⟨16, _⟩ => ⟨S4096x1024, .f32⟩
  | .hbm, ⟨17, _⟩ => ⟨S1024x1024, .f32⟩
  | .hbm, ⟨18, _⟩ => ⟨S1x1024, .f32⟩
  | .hbm, ⟨19, _⟩ => ⟨S4096x1024, .bf16⟩
  | .hbm, ⟨20, _⟩ => ⟨S2048x2x1024, .bf16⟩
  | .hbm, ⟨21, _⟩ => ⟨S4096x1024, .f32⟩
  | .hbm, ⟨22, _⟩ => ⟨S1024x1024, .f32⟩
  | .hbm, ⟨23, _⟩ => ⟨S1x1024, .f32⟩
  | .hbm, ⟨24, _⟩ => ⟨S4096x1024, .bf16⟩
  | .hbm, ⟨25, _⟩ => ⟨S2048x2x1024, .bf16⟩
  | .hbm, ⟨26, _⟩ => ⟨S2048x2x16x64, .bf16⟩
  | .hbm, ⟨27, _⟩ => ⟨S2x16x2048x64, .bf16⟩
  | .hbm, ⟨28, _⟩ => ⟨S2048x2x16x64, .bf16⟩
  | .hbm, ⟨29, _⟩ => ⟨S2x16x64x2048, .bf16⟩
  | .hbm, ⟨30, _⟩ => ⟨S2048x2x16x64, .bf16⟩
  | .hbm, ⟨31, _⟩ => ⟨S2x16x2048x64, .bf16⟩
  | .hbm, ⟨32, _⟩ => ⟨S2x16x2048x64, .bf16⟩
  | .hbm, ⟨33, _⟩ => ⟨S2x2048x2048, .f32⟩
  | .hbm, ⟨34, _⟩ => ⟨S2048x2x16x64, .bf16⟩
  | .hbm, ⟨35, _⟩ => ⟨S2048x2x1024, .bf16⟩
  | .hbm, ⟨36, _⟩ => ⟨S4096x1024, .bf16⟩
  | .hbm, ⟨37, _⟩ => ⟨S1024x1024, .f32⟩
  | .hbm, ⟨38, _⟩ => ⟨S1x1024, .f32⟩
  | .hbm, ⟨39, _⟩ => ⟨S4096x1024, .f32⟩
  | .hbm, ⟨40, _⟩ => ⟨S2048x2x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1x512x64, .bf16⟩
  | .local _ .vmem, ⟨19, _⟩ => ⟨S1x1x512x64, .bf16⟩
  | .local _ .vmem, ⟨20, _⟩ => ⟨S1x1x64x2048, .bf16⟩
  | .local _ .vmem, ⟨21, _⟩ => ⟨S1x1x64x2048, .bf16⟩
  | .local _ .vmem, ⟨22, _⟩ => ⟨S1x1x2048x64, .bf16⟩
  | .local _ .vmem, ⟨23, _⟩ => ⟨S1x1x2048x64, .bf16⟩
  | .local _ .vmem, ⟨24, _⟩ => ⟨S1x1x512x64, .bf16⟩
  | .local _ .vmem, ⟨25, _⟩ => ⟨S1x1x512x64, .bf16⟩
  | .local _ .vmem, ⟨26, _⟩ => ⟨S1x512x2048, .f32⟩
  | .local _ .vmem, ⟨27, _⟩ => ⟨S1x512x2048, .f32⟩
  | .local _ .vmem, ⟨28, _⟩ => ⟨S512x1024, .bf16⟩
  | .local _ .vmem, ⟨29, _⟩ => ⟨S512x1024, .bf16⟩
  | .local _ .vmem, ⟨30, _⟩ => ⟨S1024x1024, .f32⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 4, 16], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x64x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x1x512x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2048x2x1024_S4096x1024 : S2048x2x1024.ShapeCasts S4096x1024
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2048x2x1024 : S4096x1024.ShapeCasts S2048x2x1024
  shapeCasts_S2048x2x1024_S2048x2x16x64 : S2048x2x1024.ShapeCasts S2048x2x16x64
  transposes_S2048x2x16x64_S2x16x2048x64_1_2_0_3 : S2048x2x16x64.Transposes [1, 2, 0, 3] S2x16x2048x64
  transposes_S2048x2x16x64_S2x16x64x2048_1_2_3_0 : S2048x2x16x64.Transposes [1, 2, 3, 0] S2x16x64x2048
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  transposes_S2x16x2048x64_S2048x2x16x64_2_0_1_3 : S2x16x2048x64.Transposes [2, 0, 1, 3] S2048x2x16x64
  shapeCasts_S2048x2x16x64_S2048x2x1024 : S2048x2x16x64.ShapeCasts S2048x2x1024
  dot_S512x1024_S1024x1024_S512x1024_1_0_0_1_n_n_wf : DotDims.WF S512x1024 S1024x1024 S512x1024 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x512x64.size a ≤ S2x16x2048x64.size a
  hwx3_0 : ∀ i : grid3.Coords, EltTy.bits .bf16 = 32 ∨ (Rect.block (s := S2x16x2048x64) S1x1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x64x2048.size a ≤ S2x16x64x2048.size a
  hwx3_1 : ∀ i : grid3.Coords, EltTy.bits .bf16 = 32 ∨ (Rect.block (s := S2x16x64x2048) S1x1x64x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S2x16x2048x64.size a
  hwx3_2 : ∀ i : grid3.Coords, EltTy.bits .bf16 = 32 ∨ (Rect.block (s := S2x16x2048x64) S1x1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x512x64.size a ≤ S2x16x2048x64.size a
  hwx3_3 : ∀ i : grid3.Coords, EltTy.bits .bf16 = 32 ∨ (Rect.block (s := S2x16x2048x64) S1x1x512x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512x2048.size a ≤ S2x2048x2048.size a
  hwx3_4 : ∀ i : grid3.Coords, EltTy.bits .f32 = 32 ∨ (Rect.block (s := S2x2048x2048) S1x512x2048.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .bf16 = 32 ∨ (Rect.block (s := S4096x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v16) S1x1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1x1x64x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21_0) S1x1x512x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v21_1) S1x512x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v24) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v27) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2048x2x1024 : Shape := ⟨3, ![2048, 2, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S2048x32x64 : Shape := ⟨3, ![2048, 32, 64]⟩
abbrev S32x2048x64 : Shape := ⟨3, ![32, 2048, 64]⟩
abbrev S32x2048x2048 : Shape := ⟨3, ![32, 2048, 2048]⟩
abbrev S32x2048 : Shape := ⟨2, ![32, 2048]⟩
abbrev S32x2048x1 : Shape := ⟨3, ![32, 2048, 1]⟩
abbrev S2x16x2048x2048 : Shape := ⟨4, ![2, 16, 2048, 2048]⟩
abbrev S2x2048x2048 : Shape := ⟨3, ![2, 2048, 2048]⟩

abbrev nBuf : Space → Nat
  | .hbm => 60
  | .vmem => 0
  | .smem => 0
  | _ => 0

abbrev bufTy : (tb : Table) → Fin (tcTables nBuf tb) → BufTy
  | .hbm, ⟨0, _⟩ => ⟨S2048x2x1024, .f32⟩
  | .hbm, ⟨1, _⟩ => ⟨S2048x2x1024, .f32⟩
  | .hbm, ⟨2, _⟩ => ⟨S2048x2x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2048x2x1024, .f32⟩
  | .hbm, ⟨12, _⟩ => ⟨S1x1x1024, .f32⟩
  | .hbm, ⟨13, _⟩ => ⟨S2048x2x1024, .f32⟩
  | .hbm, ⟨14, _⟩ => ⟨S2048x2x1024, .f32⟩
  | .hbm, ⟨15, _⟩ => ⟨S_, .f32⟩
  | .hbm, ⟨16, _⟩ => ⟨S2048x2x1024, .f32⟩
  | .hbm, ⟨17, _⟩ => ⟨S2048x2x1024, .f32⟩
  | .hbm, ⟨18, _⟩ => ⟨S2048x2x1024, .f32⟩
  | .hbm, ⟨19, _⟩ => ⟨S1x1x1024, .f32⟩
  | .hbm, ⟨20, _⟩ => ⟨S2048x2x1024, .f32⟩
  | .hbm, ⟨21, _⟩ => ⟨S2048x2x1024, .f32⟩
  | .hbm, ⟨22, _⟩ => ⟨S2048x2x1024, .f32⟩
  | .hbm, ⟨23, _⟩ => ⟨S1x1x1024, .f32⟩
  | .hbm, ⟨24, _⟩ => ⟨S2048x2x1024, .f32⟩
  | .hbm, ⟨25, _⟩ => ⟨S2048x2x1024, .f32⟩
  | .hbm, ⟨26, _⟩ => ⟨S2048x32x64, .f32⟩
  | .hbm, ⟨27, _⟩ => ⟨S32x2048x64, .f32⟩
  | .hbm, ⟨28, _⟩ => ⟨S2048x32x64, .f32⟩
  | .hbm, ⟨29, _⟩ => ⟨S32x2048x64, .f32⟩
  | .hbm, ⟨30, _⟩ => ⟨S2048x32x64, .f32⟩
  | .hbm, ⟨31, _⟩ => ⟨S32x2048x64, .f32⟩
  | .hbm, ⟨32, _⟩ => ⟨S32x2048x2048, .f32⟩
  | .hbm, ⟨33, _⟩ => ⟨S_, .f32⟩
  | .hbm, ⟨34, _⟩ => ⟨S32x2048, .f32⟩
  | .hbm, ⟨35, _⟩ => ⟨S_, .f32⟩
  | .hbm, ⟨36, _⟩ => ⟨S32x2048, .f32⟩
  | .hbm, ⟨37, _⟩ => ⟨S32x2048, .f32⟩
  | .hbm, ⟨38, _⟩ => ⟨S32x2048x1, .f32⟩
  | .hbm, ⟨39, _⟩ => ⟨S32x2048x2048, .f32⟩
  | .hbm, ⟨40, _⟩ => ⟨S32x2048x2048, .f32⟩
  | .hbm, ⟨41, _⟩ => ⟨S32x2048x2048, .f32⟩
  | .hbm, ⟨42, _⟩ => ⟨S_, .f32⟩
  | .hbm, ⟨43, _⟩ => ⟨S32x2048, .f32⟩
  | .hbm, ⟨44, _⟩ => ⟨S32x2048x1, .f32⟩
  | .hbm, ⟨45, _⟩ => ⟨S32x2048x2048, .f32⟩
  | .hbm, ⟨46, _⟩ => ⟨S32x2048x2048, .f32⟩
  | .hbm, ⟨47, _⟩ => ⟨S32x2048x64, .f32⟩
  | .hbm, ⟨48, _⟩ => ⟨S2048x32x64, .f32⟩
  | .hbm, ⟨49, _⟩ => ⟨S2048x2x1024, .f32⟩
  | .hbm, ⟨50, _⟩ => ⟨S2048x2x1024, .f32⟩
  | .hbm, ⟨51, _⟩ => ⟨S1x1x1024, .f32⟩
  | .hbm, ⟨52, _⟩ => ⟨S2048x2x1024, .f32⟩
  | .hbm, ⟨53, _⟩ => ⟨S2048x2x1024, .f32⟩
  | .hbm, ⟨54, _⟩ => ⟨S2x16x2048x2048, .f32⟩
  | .hbm, ⟨55, _⟩ => ⟨S_, .f32⟩
  | .hbm, ⟨56, _⟩ => ⟨S2x2048x2048, .f32⟩
  | .hbm, ⟨57, _⟩ => ⟨S_, .f32⟩
  | .hbm, ⟨58, _⟩ => ⟨S2x2048x2048, .f32⟩
  | .hbm, ⟨59, _⟩ => ⟨S2x2048x2048, .f32⟩
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2048x2x1024_0_1_2 : S1x1x1024.BroadcastsInDim S2048x2x1024 (![0, 1, 2] : Fin 3 → Fin S2048x2x1024.rank)
  bcast_S_S2048x2x1024 : S_.BroadcastsInDim S2048x2x1024 (![] : Fin 0 → Fin S2048x2x1024.rank)
  shapeCasts_S2048x2x1024_S2048x32x64 : S2048x2x1024.ShapeCasts S2048x32x64
  transposes_S2048x32x64_S32x2048x64_1_0_2 : S2048x32x64.Transposes [1, 0, 2] S32x2048x64
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  transposes_S32x2048x64_S2048x32x64_1_0_2 : S32x2048x64.Transposes [1, 0, 2] S2048x32x64
  shapeCasts_S2048x32x64_S2048x2x1024 : S2048x32x64.ShapeCasts S2048x2x1024
  shapeCasts_S32x2048x2048_S2x16x2048x2048 : S32x2048x2048.ShapeCasts S2x16x2048x2048
  reducesTo_S2x16x2048x2048_S2x2048x2048_d1 : S2x16x2048x2048.ReducesTo [1] S2x2048x2048
  bcast_S_S2x2048x2048 : S_.BroadcastsInDim S2x2048x2048 (![] : Fin 0 → Fin S2x2048x2048.rank)
  dot_S2048x2x1024_S1024x1024_S2048x2x1024_2_1_01_0_n_n_wf : DotDims.WF S2048x2x1024 S1024x1024 S2048x2x1024 [2] [1] [0, 1] [0] [] []
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S2048x2x1024_S1024x1024_S2048x2x1024_2_1_01_0_n_n : DotDims S2048x2x1024 S1024x1024 S2048x2x1024 where
  lhsContracting := [2]
  rhsContracting := [1]
  lhsNonContracting := [0, 1]
  rhsNonContracting := [0]
  lhsBatch := []
  rhsBatch := []
  wf := dot_S2048x2x1024_S1024x1024_S2048x2x1024_2_1_01_0_n_n_wf
def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.LibSoftmaxRows.lean ====
/-
  Row softmax on the extended reals, and the vector operations that compute it on an `[a, b]` array, read at an entry.

  For a row `f : Fin n → EReal`: `rowMax f` is the fold of `max` over its entries from `-∞` (the f32 word
  `0xFF800000`), `expShift f k = exp (f k - rowMax f)`, `overSum g k = g k / ∑ j, g j`, and
  `softmaxRow f = overSum (expShift f)`.  One more maximum with `-∞` does not change a row's maximum.
  For an `[a, b]` array `v` of f32 values at the extended reals, any extents: its row maxima (a maximum-reduction along
  axis 1 from `-∞`) re-laid as a column and spread back over the lanes read, at `(r, k)`, `rowMax` of row `r`; its row
  sums (an add-reduction along axis 1 from zero) likewise read the row's sum; so `exp (v - spread maxima)` at `(r, k)` is
  `expShift` of row `r` at `k` and `g / spread sums` at `(r, k)` is `overSum` of row `r` at `k`.  Also the re-layings
  between `[1, 1, a, b]` and `[a, b]` read at an entry.  (The column forms and the reduction's source index come from the
  keepdims lemma file this module imports.)
-/
import Idealize.ShloMosaic.PureOps.Ideal
import Idealize.ShloMosaic.PureOps.Ideal.Laws
import Idealize.ShloMosaic.Lib.ValueIdx
import Idealize.ShloMosaic.Lib.Pipeline.Value
import proofs.«111124_j74646531604978_2_alg».proof.Proof.LibKeepdims

noncomputable section

namespace Cert.Attn

open Idealize.ShloMosaic Idealize.ShloMosaic.ValueIdx

/-- A row's maximum: the fold of `max` over its entries, from `-∞`. -/
def rowMax {n : ℕ} (f : Fin n → EReal) : EReal :=
  (Finset.univ : Finset (Fin n)).fold max (Ideal.ofBits .f32 0xFF800000#32) f

/-- The numerator of a row's softmax at `k`. -/
def expShift {n : ℕ} (f : Fin n → EReal) (k : Fin n) : EReal := Ideal.exp (f k - rowMax f)

/-- An entry of a row over the row's sum. -/
def overSum {n : ℕ} (g : Fin n → EReal) (k : Fin n) : EReal := Ideal.div (g k) (∑ j : Fin n, g j)

/-- A row's softmax at `k`. -/
def softmaxRow {n : ℕ} (f : Fin n → EReal) (k : Fin n) : EReal := overSum (expShift f) k

/-- The maximum of `-∞` and a row's maximum is the row's maximum: the fold starts from `-∞`. -/
theorem max_negInf_rowMax {n : ℕ} (f : Fin n → EReal) :
    max (Ideal.ofBits .f32 0xFF800000#32) (rowMax f) = rowMax f := by
  unfold rowMax
  exact max_eq_right ((Finset.le_fold_max _).2 (Or.inl le_rfl))

end Cert.Attn

namespace Cert.Attn.RowOps

open Idealize.ShloMosaic Idealize.ShloMosaic.ValueIdx Cert.Attn Cert.Lib.Keepdims

variable {a b : ℕ}

/-- The row maxima of `v`, spread back over the lanes, at `(r, k)`: the maximum of row `r`. -/
theorem rowMax_spread (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ (multiReduction .maximumf [1] ⟨1, ![a]⟩ v 0xFF800000#32 hr hφ hacc) hc) hb (ix2 r k)
      = rowMax fun k' : Fin b => v (ix2 r k') := by
  refine (column_spread_apply _ hc hb r k).trans ?_
  refine (Ideal.multiReduction_maximumf_single v _ hr hφ hacc (ix1 r)).trans ?_
  unfold rowMax
  show (Finset.univ : Finset (Fin b)).fold max _ _ = _
  refine congrArg (fun g => (Finset.univ : Finset (Fin b)).fold max (Ideal.ofBits .f32 0xFF800000#32) g) ?_
  funext k'
  exact congrArg v (lift_axis1 hr r k')

/-- The row sums of `g`, spread back over the lanes, at `(r, k)`: the sum of row `r`. -/
theorem rowSum_spread (g : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ (multiReduction .add [1] ⟨1, ![a]⟩ g 0x00000000#32 hr hφ hacc) hc) hb (ix2 r k)
      = ∑ k' : Fin b, g (ix2 r k') := by
  refine (column_spread_apply _ hc hb r k).trans ?_
  refine (Ideal.multiReduction_add_single g _ hr hφ hacc (ix1 r)).trans ?_
  show ∑ k' : Fin b, _ = _
  refine Finset.sum_congr rfl fun k' _ => ?_
  exact congrArg g (lift_axis1 hr r k')

/-- `exp` of the array minus its spread row maxima, at `(r, k)`: the softmax numerator of row `r` at `k`. -/
theorem expShift_vec (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    exp (subf v (broadcastTo ⟨2, ![a, b]⟩ (shapeCast ⟨2, ![a, 1]⟩ (multiReduction .maximumf [1] ⟨1, ![a]⟩ v 0xFF800000#32 hr hφ hacc) hc) hb)) (ix2 r k)
      = expShift (fun k' : Fin b => v (ix2 r k')) k :=
  congrArg (fun M => Ideal.exp (v (ix2 r k) - M)) (rowMax_spread v hr hφ hacc hc hb r k)

/-- The array over its spread row sums, at `(r, k)`: row `r`'s entry over the row's sum. -/
theorem overSum_vec (g : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf g (broadcastTo ⟨2, ![a, b]⟩ (shapeCast ⟨2, ![a, 1]⟩ (multiReduction .add [1] ⟨1, ![a]⟩ g 0x00000000#32 hr hφ hacc) hc) hb) (ix2 r k)
      = overSum (fun k' : Fin b => g (ix2 r k')) k :=
  congrArg (fun S => Ideal.div (g (ix2 r k)) S) (rowSum_spread g hr hφ hacc hc hb r k)

variable {α : Type}

/-- A `[1, 1, a, b]` array re-laid as `[a, b]` reads, at `(i, j)`, the operand at `(0, 0, i, j)`. -/
theorem shapeCast_11ab_ab_apply (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array re-laid as `[1, 1, a, b]` reads, at `(u, w, i, j)`, the operand at `(i, j)`. -/
theorem shapeCast_ab_11ab_apply (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]; simp only [Nat.zero_mul, Nat.zero_add])

end Cert.Attn.RowOps

end
-- ==== Proof.Spec.lean ====
/-
  Multi-head attention over the extended reals, as plain functions of the argument arrays.

  With S = 2048 positions, B = 2 batch entries, E = 1024 features split into H = 16 heads of D = 64 lanes
  (feature e = 64 h + d):
    proj X W b (s, β, f)   = Σ_e X[s,β,e] · W[f,e] + b[f]                      (a linear layer, x · Wᵀ + b)
    score Q K β h q k      = Σ_d Q[q,β,64h+d] · K[k,β,64h+d]
    attn Q K β h q         = the softmax of the row k ↦ score Q K β h q k
    ctx Q K V (q, β, 64h+d)= Σ_k attn Q K β h q k · V[k,β,64h+d]
    Z                      = proj ctx out_w out_b
    avg (β, q, k)          = (Σ_h attn Q K β h q k) / 16
  where Q = proj query q_w q_b · 1/8, K = proj key k_w k_b, V = proj value v_w v_b.
  Also the two intermediate forms the tiled program goes through: one linear layer on a [4096, 1024] matrix whose rows
  are the pairs (s, β), and attention on head-major arrays [B, H, S, D] (keys transposed to [B, H, D, S]).
-/
import Idealize.ShloMosaic.PureOps.Ideal
import Idealize.ShloMosaic.Lib.ValueIdx
import proofs.«111124_j74646531604978_2_alg».proof.Proof.LibSoftmaxRows

noncomputable section

namespace Cert.Mha

open Idealize.ShloMosaic Idealize.ShloMosaic.ValueIdx Cert.Attn

abbrev SBE : Shape := ⟨3, ![2048, 2, 1024]⟩
abbrev EE : Shape := ⟨2, ![1024, 1024]⟩
abbrev E1 : Shape := ⟨1, ![1024]⟩
abbrev BSS : Shape := ⟨3, ![2, 2048, 2048]⟩
abbrev ME : Shape := ⟨2, ![4096, 1024]⟩
abbrev R1E : Shape := ⟨2, ![1, 1024]⟩
abbrev BHSD : Shape := ⟨4, ![2, 16, 2048, 64]⟩
abbrev BHDS : Shape := ⟨4, ![2, 16, 64, 2048]⟩

/-- The three-axis view of an array. -/
abbrev A3 : Type := Fin 2048 → Fin 2 → Fin 1024 → EReal

/-- Feature 64 h + d: lane d of head h. -/
def col (h : Fin 16) (d : Fin 64) : Fin 1024 := ⟨h.val * 64 + d.val, by omega⟩

/-- Row 2 s + β of the [4096, 1024] matrix: position s of batch entry β. -/
def row (s : Fin 2048) (β : Fin 2) : Fin 4096 := ⟨s.val * 2 + β.val, by omega⟩

/-- A linear layer x · Wᵀ + b at (s, β, f). -/
def proj (X : SBE.Idx → EReal) (W : EE.Idx → EReal) (b : E1.Idx → EReal) : A3 := fun s β f =>
  (∑ e : Fin 1024, X (ix3 s β e) * W (ix2 f e)) + b (ix1 f)

/-- The query projection, scaled by 1/8 (the f32 word of 0.125). -/
def qproj (X : SBE.Idx → EReal) (W : EE.Idx → EReal) (b : E1.Idx → EReal) : A3 := fun s β f =>
  proj X W b s β f * Ideal.ofBits .f32 0x3E000000#32

/-- The score of query position q against key position k in head h of batch entry β. -/
def score (Q K : A3) (β : Fin 2) (h : Fin 16) (q k : Fin 2048) : EReal :=
  ∑ d : Fin 64, Q q β (col h d) * K k β (col h d)

/-- The attention weights of query position q: the softmax of its row of scores. -/
def attn (Q K : A3) (β : Fin 2) (h : Fin 16) (q : Fin 2048) : Fin 2048 → EReal :=
  softmaxRow fun k => score Q K β h q k

/-- The attended values at (q, β, 64 h + d). -/
def ctx (Q K V : A3) (q : Fin 2048) (β : Fin 2) (h : Fin 16) (d : Fin 64) : EReal :=
  ∑ k : Fin 2048, attn Q K β h q k * V k β (col h d)

/-- The same with the feature as one coordinate e = 64 h + d. -/
def ctxE (Q K V : A3) : A3 := fun q β e =>
  ctx Q K V q β ⟨e.val / 64, by omega⟩ ⟨e.val % 64, by omega⟩

/-- The output projection of the attended values, as an array. -/
def Zarr (a0 a1 a2 : SBE.Idx → EReal) (a3 : EE.Idx → EReal) (a4 : E1.Idx → EReal) (a5 : EE.Idx → EReal) (a6 : E1.Idx → EReal)
    (a7 : EE.Idx → EReal) (a8 : E1.Idx → EReal) (a9 : EE.Idx → EReal) (a10 : E1.Idx → EReal) : SBE.Idx → EReal := fun i =>
  (∑ e : Fin 1024, ctxE (qproj a0 a3 a4) (proj a1 a5 a6) (proj a2 a7 a8) (i 0) (i 1) e * a9 (ix2 (i 2) e)) + a10 (ix1 (i 2))

/-- The attention weights averaged over the heads, as an array: the sum over the 16 heads divided by 16 (the f32 word of 16.0). -/
def AvgArr (a0 a1 : SBE.Idx → EReal) (a3 : EE.Idx → EReal) (a4 : E1.Idx → EReal) (a5 : EE.Idx → EReal) (a6 : E1.Idx → EReal) :
    BSS.Idx → EReal := fun i =>
  Ideal.div (∑ h : Fin 16, attn (qproj a0 a3 a4) (proj a1 a5 a6) (i 0) h (i 1) (i 2)) (Ideal.ofBits .f32 0x41800000#32)

/-! ## The tiled program's intermediate forms -/

/-- One linear layer on a [4096, 1024] matrix: (X · Wt + b) · c at (r, f), with Wt already transposed to [in, out], the
    bias a one-row matrix and c a scalar. -/
def linArr (X : ME.Idx → EReal) (Wt : EE.Idx → EReal) (b : R1E.Idx → EReal) (c : EReal) : ME.Idx → EReal := fun i =>
  ((∑ e : Fin 1024, X (ix2 (i 0) e) * Wt (ix2 e (i 1))) + b (ix2 (0 : Fin 1) (i 1))) * c

/-- Scores on head-major arrays: queries [B, H, S, D] against transposed keys [B, H, D, S]. -/
def scoreA (qh : BHSD.Idx → EReal) (kT : BHDS.Idx → EReal) (β : Fin 2) (h : Fin 16) (q k : Fin 2048) : EReal :=
  ∑ d : Fin 64, qh (ix4 β h q d) * kT (ix4 β h d k)

/-- Attention weights on head-major arrays. -/
def attnA (qh : BHSD.Idx → EReal) (kT : BHDS.Idx → EReal) (β : Fin 2) (h : Fin 16) (q : Fin 2048) : Fin 2048 → EReal :=
  softmaxRow fun k => scoreA qh kT β h q k

/-- Attended values on head-major arrays, [B, H, S, D]. -/
def ctxArr (qh : BHSD.Idx → EReal) (kT : BHDS.Idx → EReal) (vh : BHSD.Idx → EReal) : BHSD.Idx → EReal := fun i =>
  ∑ k : Fin 2048, attnA qh kT (i 0) (i 1) (i 2) k * vh (ix4 (i 0) (i 1) k (i 3))

/-- The head-averaged attention weights on head-major arrays, [B, S, S]: the sum over the heads times 1/16 (the f32
    word of 0.0625). -/
def avgArr (qh : BHSD.Idx → EReal) (kT : BHDS.Idx → EReal) : BSS.Idx → EReal := fun i =>
  (∑ h : Fin 16, attnA qh kT (i 0) h (i 1) (i 2)) * Ideal.ofBits .f32 0x3D800000#32

end Cert.Mha

end
-- ==== Proof.RefSide.lean ====
/-
  The reference program, read stage by stage at an entry, is multi-head attention as the specification states it.

  With S = 2048 positions, B = 2 batch entries, E = 1024 features in H = 16 heads of D = 64 lanes:
    - each of the three linear layers, at (s, β, f), is Σ_e X[s,β,e] · W[f,e] + b[f]; the query one is then scaled by 1/8;
    - the re-laying [S, B, E] → [S, 32, 64] → [32, S, 64] puts entry (q, β, 64 h + d) at (16 β + h, q, d), because
      ((32 q + 16 β + h) · 64 + d) = 2048 q + 1024 β + (64 h + d);
    - the scores at (16 β + h, q, k) are Σ_d Q[q,β,64h+d] · K[k,β,64h+d];
    - the row maximum is the fold of max from -∞ over k, and one more maximum with -∞ does not change it; subtracting it,
      taking the exponential, summing the row from zero and dividing give the row's softmax, the attention weights;
    - the attended values at (16 β + h, q, d) are Σ_k weights · V[k,β,64h+d]; re-laid back, entry (s, β, e) comes from
      (16 β + e / 64, s, e % 64), because ((2 s + β) · 1024 + e) / 64 % 32 = 16 β + e / 64;
    - the first result is the output linear layer of these; the second is the weights viewed as [B, H, S, S], summed over
      the heads from zero and divided by 16, where (β, h, q, k) comes from (16 β + h, q, k).
  Every step is an equation between extended reals at one entry; sums are matched term by term.
-/
import proofs.«111124_j74646531604978_2_alg».proof.Proof.Gen.ReferenceIdeal.Read
import proofs.«111124_j74646531604978_2_alg».proof.Proof.Spec

noncomputable section

namespace Cert.Mha.Ref

open Cert.ReferenceIdeal Cert.ReferenceIdeal.Gen Cert.ReferenceIdeal.Read Idealize.ShloMosaic Idealize.ShloMosaic.ValueIdx Cert.Attn Cert.Mha

/-- A three-axis array [S, B, E] at the extended reals. -/
abbrev TX := (⟨S2048x2x1024, .f32⟩ : BufTy).Contents (Elt Ideal)
/-- A square weight matrix [E, E] at the extended reals. -/
abbrev TW := (⟨S1024x1024, .f32⟩ : BufTy).Contents (Elt Ideal)
/-- A bias vector [E] at the extended reals. -/
abbrev TB := (⟨S1024, .f32⟩ : BufTy).Contents (Elt Ideal)

/-! ## The linear layers

The contraction of (s, β, f) at e reads the input at (s, β, e) and the weight at (f, e); the bias, spread over the
positions and batch entries, reads at f. -/

theorem lidx0 (s : Fin 2048) (β : Fin 2) (f k : Fin 1024) : lidx_main_v0 (ix3 s β f) k = ix3 s β k :=
  funext fun a => Fin.ext (by match a with | ⟨0, _⟩ => rfl | ⟨1, _⟩ => rfl | ⟨2, _⟩ => rfl)
theorem ridx0 (s : Fin 2048) (β : Fin 2) (f k : Fin 1024) : ridx_main_v0 (ix3 s β f) k = ix2 f k :=
  funext fun a => Fin.ext (by match a with | ⟨0, _⟩ => rfl | ⟨1, _⟩ => rfl)
theorem bidx0 (s : Fin 2048) (β : Fin 2) (f : Fin 1024) : idx_main_v1 (idx_main_v2 (ix3 s β f)) = ix1 f :=
  funext fun a => Fin.ext (by match a with | ⟨0, _⟩ => rfl)

/-- A linear layer at (s, β, f): Σ_e X[s,β,e] · W[f,e] + b[f]. -/
theorem v3_at (x : TX) (w : TW) (b : TB) (s : Fin 2048) (β : Fin 2) (f : Fin 1024) :
    val_main_v3 (F := Ideal) x w b (ix3 s β f) = proj x w b s β f := by
  rw [val_main_v3_apply, val_main_v0_apply, val_main_v2_apply, val_main_v1_apply]
  unfold proj
  simp only [lidx0, ridx0, bidx0, Ideal.addf_def]

/-- The key and value layers are the same term as the query's, before its scaling. -/
theorem v9_eq (x : TX) (w : TW) (b : TB) : val_main_v9 (F := Ideal) x w b = val_main_v3 (F := Ideal) x w b := rfl
theorem v13_eq (x : TX) (w : TW) (b : TB) : val_main_v13 (F := Ideal) x w b = val_main_v3 (F := Ideal) x w b := rfl

/-- The query layer times 1/8. -/
theorem v5_at (x : TX) (w : TW) (b : TB) (s : Fin 2048) (β : Fin 2) (f : Fin 1024) :
    val_main_v5 (F := Ideal) x w b (ix3 s β f) = qproj x w b s β f := by
  rw [val_main_v5_apply, v3_at, val_main_v4_apply, val_main_cst_apply]
  unfold qproj
  simp only [Ideal.mulf_def, Ideal.ofBits_def]

/-! ## Head-major layout and the scores -/

/-- Batch-head index 16 β + h: head h of batch entry β. -/
def bh (β : Fin 2) (h : Fin 16) : Fin 32 := ⟨β.val * 16 + h.val, by omega⟩

/-- Entry (16 β + h, q, d) of the head-major array is entry (q, β, 64 h + d) of the projection. -/
theorem hidx (β : Fin 2) (h : Fin 16) (q : Fin 2048) (d : Fin 64) :
    idx_main_v14 (idx_main_v15 (ix3 (bh β h) q d)) = ix3 q β (col h d) :=
  funext fun a => Fin.ext (by
    have hβ := β.isLt; have hh := h.isLt; have hq := q.isLt; have hd := d.isLt
    match a with
    | ⟨0, _⟩ => show ((q.val * 32 + (β.val * 16 + h.val)) * 64 + d.val) / 2048 = q.val; omega
    | ⟨1, _⟩ => show ((q.val * 32 + (β.val * 16 + h.val)) * 64 + d.val) / 1024 % 2 = β.val; omega
    | ⟨2, _⟩ => show ((q.val * 32 + (β.val * 16 + h.val)) * 64 + d.val) % 1024 = h.val * 64 + d.val; omega)

/-- The scaled queries, head-major. -/
theorem v15_at (x : TX) (w : TW) (b : TB) (β : Fin 2) (h : Fin 16) (q : Fin 2048) (d : Fin 64) :
    val_main_v15 (F := Ideal) x w b (ix3 (bh β h) q d) = qproj x w b q β (col h d) := by
  rw [val_main_v15_apply, val_main_v14_apply, hidx, v5_at]

/-- The keys, head-major. -/
theorem v17_at (x : TX) (w : TW) (b : TB) (β : Fin 2) (h : Fin 16) (k : Fin 2048) (d : Fin 64) :
    val_main_v17 (F := Ideal) x w b (ix3 (bh β h) k d) = proj x w b k β (col h d) := by
  rw [val_main_v17_apply, val_main_v16_apply, v9_eq]
  exact (congrArg (val_main_v3 (F := Ideal) x w b) (hidx β h k d)).trans (v3_at x w b k β (col h d))

/-- The values, head-major. -/
theorem v19_at (x : TX) (w : TW) (b : TB) (β : Fin 2) (h : Fin 16) (k : Fin 2048) (d : Fin 64) :
    val_main_v19 (F := Ideal) x w b (ix3 (bh β h) k d) = proj x w b k β (col h d) := by
  rw [val_main_v19_apply, val_main_v18_apply, v13_eq]
  exact (congrArg (val_main_v3 (F := Ideal) x w b) (hidx β h k d)).trans (v3_at x w b k β (col h d))

theorem lidx20 (b : Fin 32) (q k : Fin 2048) (d : Fin 64) : lidx_main_v20 (ix3 b q k) d = ix3 b q d :=
  funext fun a => Fin.ext (by match a with | ⟨0, _⟩ => rfl | ⟨1, _⟩ => rfl | ⟨2, _⟩ => rfl)
theorem ridx20 (b : Fin 32) (q k : Fin 2048) (d : Fin 64) : ridx_main_v20 (ix3 b q k) d = ix3 b k d :=
  funext fun a => Fin.ext (by match a with | ⟨0, _⟩ => rfl | ⟨1, _⟩ => rfl | ⟨2, _⟩ => rfl)

/-- The scores: entry (16 β + h, q, k). -/
theorem v20_at (x0 x1 : TX) (x3 : TW) (x4 : TB) (x5 : TW) (x6 : TB) (β : Fin 2) (h : Fin 16) (q k : Fin 2048) :
    val_main_v20 (F := Ideal) x0 x1 x3 x4 x5 x6 (ix3 (bh β h) q k)
      = score (qproj x0 x3 x4) (proj x1 x5 x6) β h q k := by
  rw [val_main_v20_apply]
  unfold score
  refine Finset.sum_congr rfl fun d _ => ?_
  rw [lidx20, ridx20, v15_at, v17_at]

/-! ## The row softmax -/

/-- The result index (b, q) of the reduction over the last axis, with k put back, is (b, q, k). -/
theorem lift21 (hr : S32x2048x2048.Reduces [2] S32x2048) (b : Fin 32) (q : Fin 2048) (k : Fin (S32x2048x2048.size 2)) :
    hr.lift (ix2 b q) k = ix3 b q (⟨k.val, k.isLt⟩ : Fin 2048) :=
  funext fun c => Fin.ext (by match c with | ⟨0, _⟩ => rfl | ⟨1, _⟩ => rfl | ⟨2, _⟩ => rfl)

/-- The row maxima: the fold of max from -∞ over a row of scores. -/
theorem v21_at (x0 x1 : TX) (x3 : TW) (x4 : TB) (x5 : TW) (x6 : TB) (β : Fin 2) (h : Fin 16) (q : Fin 2048) :
    val_main_v21 (F := Ideal) x0 x1 x3 x4 x5 x6 (ix2 (bh β h) q)
      = rowMax fun k : Fin 2048 => score (qproj x0 x3 x4) (proj x1 x5 x6) β h q k := by
  unfold val_main_v21
  have hr : S32x2048x2048.Reduces [2] S32x2048 := by decide
  refine (Host.reduce_eq_fold_single (α := Ideal .f32) (s := S32x2048x2048) (t := S32x2048) (u := S_)
    (FloatOps.maximumf (F := Ideal) (φ := .f32)) (val_main_v20 (F := Ideal) x0 x1 x3 x4 x5 x6)
    (val_main_cst_0 (F := Ideal)) reducesTo_S32x2048x2048_S32x2048_d2 hr h_S_ (ix2 (bh β h) q)).trans ?_
  unfold rowMax
  show (Finset.univ : Finset (Fin 2048)).fold max (Ideal.ofBits .f32 0xFF800000#32) _ = _
  refine congrArg (fun g => (Finset.univ : Finset (Fin 2048)).fold max (Ideal.ofBits .f32 0xFF800000#32) g) ?_
  funext k
  exact (congrArg (val_main_v20 (F := Ideal) x0 x1 x3 x4 x5 x6) (lift21 hr (bh β h) q k)).trans
    (v20_at x0 x1 x3 x4 x5 x6 β h q k)

/-- One more maximum with -∞ leaves the row maxima as they are. -/
theorem v23_at (x0 x1 : TX) (x3 : TW) (x4 : TB) (x5 : TW) (x6 : TB) (β : Fin 2) (h : Fin 16) (q : Fin 2048) :
    val_main_v23 (F := Ideal) x0 x1 x3 x4 x5 x6 (ix2 (bh β h) q)
      = rowMax fun k : Fin 2048 => score (qproj x0 x3 x4) (proj x1 x5 x6) β h q k := by
  rw [val_main_v23_apply, val_main_v22_apply, val_main_cst_1_apply, v21_at, Ideal.maximumf_def, Ideal.ofBits_def]
  exact max_negInf_rowMax _

theorem cidx25 (b : Fin 32) (q k : Fin 2048) : idx_main_v24 (idx_main_v25 (ix3 b q k)) = ix2 b q :=
  funext fun a => Fin.ext (by match a with | ⟨0, _⟩ => rfl | ⟨1, _⟩ => rfl)
theorem cidx30 (b : Fin 32) (q k : Fin 2048) : idx_main_v29 (idx_main_v30 (ix3 b q k)) = ix2 b q :=
  funext fun a => Fin.ext (by match a with | ⟨0, _⟩ => rfl | ⟨1, _⟩ => rfl)
theorem idx28 (b : Fin 32) (q k : Fin 2048) : idx_main_v28 (ix2 b q) k = ix3 b q k :=
  funext fun a => Fin.ext (by match a with | ⟨0, _⟩ => rfl | ⟨1, _⟩ => rfl | ⟨2, _⟩ => rfl)

/-- The softmax numerators. -/
theorem v27_at (x0 x1 : TX) (x3 : TW) (x4 : TB) (x5 : TW) (x6 : TB) (β : Fin 2) (h : Fin 16) (q k : Fin 2048) :
    val_main_v27 (F := Ideal) x0 x1 x3 x4 x5 x6 (ix3 (bh β h) q k)
      = expShift (fun k : Fin 2048 => score (qproj x0 x3 x4) (proj x1 x5 x6) β h q k) k := by
  rw [val_main_v27_apply, val_main_v26_apply, val_main_v25_apply, val_main_v24_apply, cidx25, v23_at, v20_at,
    Ideal.hostUnary_exp_def, Ideal.subf_def]
  rfl

/-- The row sums of the numerators. -/
theorem v28_at (x0 x1 : TX) (x3 : TW) (x4 : TB) (x5 : TW) (x6 : TB) (β : Fin 2) (h : Fin 16) (q : Fin 2048) :
    val_main_v28 (F := Ideal) x0 x1 x3 x4 x5 x6 (ix2 (bh β h) q)
      = ∑ j : Fin 2048, expShift (fun k : Fin 2048 => score (qproj x0 x3 x4) (proj x1 x5 x6) β h q k) j := by
  rw [val_main_v28_apply, val_main_cst_2_apply, Ideal.ofBits_def, Ideal.ofBits_zero_f32, zero_add]
  refine Finset.sum_congr rfl fun j _ => ?_
  rw [idx28, v27_at]

/-- The attention weights: entry (16 β + h, q, k). -/
theorem v31_at (x0 x1 : TX) (x3 : TW) (x4 : TB) (x5 : TW) (x6 : TB) (β : Fin 2) (h : Fin 16) (q k : Fin 2048) :
    val_main_v31 (F := Ideal) x0 x1 x3 x4 x5 x6 (ix3 (bh β h) q k)
      = attn (qproj x0 x3 x4) (proj x1 x5 x6) β h q k := by
  rw [val_main_v31_apply, val_main_v30_apply, val_main_v29_apply, cidx30, v28_at, v27_at, Ideal.hostDivf_def]
  rfl

/-! ## Attended values, the output layer, and the head average -/

theorem lidx32 (b : Fin 32) (q : Fin 2048) (d : Fin 64) (k : Fin 2048) : lidx_main_v32 (ix3 b q d) k = ix3 b q k :=
  funext fun a => Fin.ext (by match a with | ⟨0, _⟩ => rfl | ⟨1, _⟩ => rfl | ⟨2, _⟩ => rfl)
theorem ridx32 (b : Fin 32) (q : Fin 2048) (d : Fin 64) (k : Fin 2048) : ridx_main_v32 (ix3 b q d) k = ix3 b k d :=
  funext fun a => Fin.ext (by match a with | ⟨0, _⟩ => rfl | ⟨1, _⟩ => rfl | ⟨2, _⟩ => rfl)

/-- The attended values, head-major: entry (16 β + h, q, d). -/
theorem v32_at (x0 x1 x2 : TX) (x3 : TW) (x4 : TB) (x5 : TW) (x6 : TB) (x7 : TW) (x8 : TB)
    (β : Fin 2) (h : Fin 16) (q : Fin 2048) (d : Fin 64) :
    val_main_v32 (F := Ideal) x0 x1 x2 x3 x4 x5 x6 x7 x8 (ix3 (bh β h) q d)
      = ctx (qproj x0 x3 x4) (proj x1 x5 x6) (proj x2 x7 x8) q β h d := by
  rw [val_main_v32_apply]
  unfold ctx
  refine Finset.sum_congr rfl fun k _ => ?_
  rw [lidx32, ridx32, v31_at, v19_at]

/-- Entry (s, β, e) of the re-laid attended values is entry (16 β + e / 64, s, e % 64) of the head-major array. -/
theorem cidx34 (s : Fin 2048) (β : Fin 2) (e : Fin 1024) :
    idx_main_v33 (idx_main_v34 (ix3 s β e))
      = ix3 (bh β ⟨e.val / 64, by omega⟩) s (⟨e.val % 64, by omega⟩ : Fin 64) :=
  funext fun a => Fin.ext (by
    have hs := s.isLt; have hβ := β.isLt; have he := e.isLt
    match a with
    | ⟨0, _⟩ => show ((s.val * 2 + β.val) * 1024 + e.val) / 64 % 32 = β.val * 16 + e.val / 64; omega
    | ⟨1, _⟩ => show ((s.val * 2 + β.val) * 1024 + e.val) / 2048 = s.val; omega
    | ⟨2, _⟩ => show ((s.val * 2 + β.val) * 1024 + e.val) % 64 = e.val % 64; omega)

/-- The attended values with the feature as one coordinate. -/
theorem v34_at (x0 x1 x2 : TX) (x3 : TW) (x4 : TB) (x5 : TW) (x6 : TB) (x7 : TW) (x8 : TB)
    (s : Fin 2048) (β : Fin 2) (e : Fin 1024) :
    val_main_v34 (F := Ideal) x0 x1 x2 x3 x4 x5 x6 x7 x8 (ix3 s β e)
      = ctxE (qproj x0 x3 x4) (proj x1 x5 x6) (proj x2 x7 x8) s β e := by
  rw [val_main_v34_apply, val_main_v33_apply, cidx34, v32_at]
  rfl

theorem lidx35 (s : Fin 2048) (β : Fin 2) (f k : Fin 1024) : lidx_main_v35 (ix3 s β f) k = ix3 s β k :=
  funext fun a => Fin.ext (by match a with | ⟨0, _⟩ => rfl | ⟨1, _⟩ => rfl | ⟨2, _⟩ => rfl)
theorem ridx35 (s : Fin 2048) (β : Fin 2) (f k : Fin 1024) : ridx_main_v35 (ix3 s β f) k = ix2 f k :=
  funext fun a => Fin.ext (by match a with | ⟨0, _⟩ => rfl | ⟨1, _⟩ => rfl)
theorem bidx37 (s : Fin 2048) (β : Fin 2) (f : Fin 1024) : idx_main_v36 (idx_main_v37 (ix3 s β f)) = ix1 f :=
  funext fun a => Fin.ext (by match a with | ⟨0, _⟩ => rfl)

/-- The reference's first result is the output projection of the attended values. -/
theorem ref_Z (x0 x1 x2 : (⟨S2048x2x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) :
    val_main_v38 (F := Ideal) x0 x1 x2 x3 x4 x5 x6 x7 x8 x9 x10 = Cert.Mha.Zarr x0 x1 x2 x3 x4 x5 x6 x7 x8 x9 x10 := by
  funext i
  obtain ⟨s, β, f, rfl⟩ : ∃ (s : Fin 2048) (β : Fin 2) (f : Fin 1024), i = ix3 s β f := ⟨i 0, i 1, i 2, eq_ix3 i⟩
  rw [val_main_v38_apply, val_main_v35_apply, val_main_v37_apply, val_main_v36_apply, bidx37, Ideal.addf_def]
  unfold Zarr
  show (∑ e : Fin 1024, _) + _ = (∑ e : Fin 1024, ctxE _ _ _ s β e * x9 (ix2 f e)) + x10 (ix1 f)
  refine congrArg (· + x10 (ix1 f)) (Finset.sum_congr rfl fun e _ => ?_)
  rw [lidx35, ridx35, v34_at]

/-- Entry (β, h, q, k) of the four-axis view of the attention weights is entry (16 β + h, q, k). -/
theorem cidx39 (β : Fin 2) (h : Fin 16) (q k : Fin 2048) : idx_main_v39 (ix4 β h q k) = ix3 (bh β h) q k :=
  funext fun a => Fin.ext (by
    have hβ := β.isLt; have hh := h.isLt; have hq := q.isLt; have hk := k.isLt
    match a with
    | ⟨0, _⟩ => show (((β.val * 16 + h.val) * 2048 + q.val) * 2048 + k.val) / 4194304 = β.val * 16 + h.val; omega
    | ⟨1, _⟩ => show (((β.val * 16 + h.val) * 2048 + q.val) * 2048 + k.val) / 2048 % 2048 = q.val; omega
    | ⟨2, _⟩ => show (((β.val * 16 + h.val) * 2048 + q.val) * 2048 + k.val) % 2048 = k.val; omega)
theorem idx40 (β : Fin 2) (q k : Fin 2048) (h : Fin 16) : idx_main_v40 (ix3 β q k) h = ix4 β h q k :=
  funext fun a => Fin.ext (by match a with | ⟨0, _⟩ => rfl | ⟨1, _⟩ => rfl | ⟨2, _⟩ => rfl | ⟨3, _⟩ => rfl)

/-- The reference's second result is the attention weights averaged over the heads. -/
theorem ref_avg (x0 x1 : (⟨S2048x2x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    val_main_v42 (F := Ideal) x0 x1 x3 x4 x5 x6 = Cert.Mha.AvgArr x0 x1 x3 x4 x5 x6 := by
  funext i
  obtain ⟨β, q, k, rfl⟩ : ∃ (β : Fin 2) (q k : Fin 2048), i = ix3 β q k := ⟨i 0, i 1, i 2, eq_ix3 i⟩
  rw [val_main_v42_apply, val_main_v40_apply, val_main_v41_apply, val_main_cst_4_apply, val_main_cst_3_apply]
  simp only [Ideal.hostDivf_def, Ideal.ofBits_def, Ideal.ofBits_zero_f32, zero_add]
  unfold AvgArr
  show Ideal.div (∑ h : Fin 16, _) _ = Ideal.div (∑ h : Fin 16, attn _ _ β h q k) _
  refine congrArg (fun S => Ideal.div S (Ideal.ofBits .f32 0x41800000#32)) (Finset.sum_congr rfl fun h _ => ?_)
  rw [idx40, val_main_v39_apply, cidx39, v31_at]

end Cert.Mha.Ref
end
-- ==== Proof.KernelRun.lean ====
/-
  The idealized kernel program's run with its two results named: every weakly fair execution of the whole program
  (five tiled matrix kernels among host re-layings) terminates without a fault, and in the final memory the two result
  arrays hold what the last boundary's contents assign to them, while the eleven argument arrays are as launched.
  The boundary contents are a fold through the program: a host stretch applies its operations, a tiled kernel replaces
  its output arrays by what its write-backs leave.
-/
import proofs.«111124_j74646531604978_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the two results at the last boundary's contents, the arguments unchanged. -/
theorem run : θ_run defs (onTc (τ := τ) (main (F := F))) ⟨m, fun _ => 0, ρ⟩ (fun r => ∀ c : Dev nD,
      r.2.mem ((c.tc : Thread nD τ).loc main_v28) = W11 m ρ c (Proc.devRef .tc main_v28)
      ∧ r.2.mem ((c.tc : Thread nD τ).loc main_v21_1) = W11 m ρ c (Proc.devRef .tc main_v21_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v28 (by decide)),
       h c _ (mem_uc main_v21_1 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Named

end
-- ==== Proof.KernelWalk.lean ====
/-
  What each tiled kernel of the program finds in its operand arrays, and what the two results hold at the end, as
  re-layings of the argument arrays and of the earlier kernels' output arrays.

  The buffer contents at the boundaries are a fold through the program: a host stretch applies its re-layings, a
  tiled kernel replaces its output array by what its write-backs leave, and nothing else changes. Walking each
  operand's buffer back through the fold to where it was written gives:
    kernel 0, 1, 2 (the three input projections): X = the argument flattened to [4096, 1024], Wt = the weight
      transposed, the bias as one row;
    kernel 3 (attention): the three projections' outputs split back to [2048, 2, 1024], the feature axis split into
      heads, the axes permuted to head-major order (the keys with the position axis last);
    kernel 4 (the output projection): kernel 3's attended values permuted back and flattened;
    the results: kernel 4's output split back to [2048, 2, 1024], and kernel 3's averaged weights as written.
-/
import proofs.«111124_j74646531604978_2_alg».proof.Proof.Gen.KernelIdeal.Frame
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- A buffer that no operation of a host stretch writes keeps its contents across the stretch. -/
macro "skip_host" : tactic => `(tactic|
  (refine StableHlo.after_of_forall_not_mem _ _ (List.forall_iff_forall_mem.mp ?_)
   simp only [hostOps0, hostOps1, hostOps2, hostOps3, hostOps4, hostOps5, List.Forall, StableHlo.unary_writes,
     StableHlo.reshape_writes, Finset.mem_singleton]
   repeat' apply And.intro
   all_goals exact StableHlo.devRef_ne_of_ne (by decide)))

/-! ## An argument read at a later boundary is the launch memory's -/

theorem W2_keep (b : Ref sig .tc) (h0 : StableHlo.after hostOps0 (W0 m ρ c) (Proc.devRef .tc b) = W0 m ρ c (Proc.devRef .tc b))
    (hn : ∀ w, Pipeline.arrRef spec0 w ≠ b) : W2 m ρ c (Proc.devRef .tc b) = m ((c : Thread nD τ).loc b) :=
  (W2_of_ne m ρ c b hn).trans h0

theorem W2_arg1 : W2 m ρ c (Proc.devRef .tc main_arg1) = m ((c : Thread nD τ).loc main_arg1) :=
  W2_keep m ρ c main_arg1 (by skip_host) (by decide)
theorem W2_arg5 : W2 m ρ c (Proc.devRef .tc main_arg5) = m ((c : Thread nD τ).loc main_arg5) :=
  W2_keep m ρ c main_arg5 (by skip_host) (by decide)
theorem W2_arg6 : W2 m ρ c (Proc.devRef .tc main_arg6) = m ((c : Thread nD τ).loc main_arg6) :=
  W2_keep m ρ c main_arg6 (by skip_host) (by decide)
theorem W2_arg2 : W2 m ρ c (Proc.devRef .tc main_arg2) = m ((c : Thread nD τ).loc main_arg2) :=
  W2_keep m ρ c main_arg2 (by skip_host) (by decide)
theorem W2_arg7 : W2 m ρ c (Proc.devRef .tc main_arg7) = m ((c : Thread nD τ).loc main_arg7) :=
  W2_keep m ρ c main_arg7 (by skip_host) (by decide)
theorem W2_arg8 : W2 m ρ c (Proc.devRef .tc main_arg8) = m ((c : Thread nD τ).loc main_arg8) :=
  W2_keep m ρ c main_arg8 (by skip_host) (by decide)
theorem W2_arg9 : W2 m ρ c (Proc.devRef .tc main_arg9) = m ((c : Thread nD τ).loc main_arg9) :=
  W2_keep m ρ c main_arg9 (by skip_host) (by decide)
theorem W2_arg10 : W2 m ρ c (Proc.devRef .tc main_arg10) = m ((c : Thread nD τ).loc main_arg10) :=
  W2_keep m ρ c main_arg10 (by skip_host) (by decide)

theorem W4_keep (b : Ref sig .tc) (h1 : StableHlo.after hostOps1 (W2 m ρ c) (Proc.devRef .tc b) = W2 m ρ c (Proc.devRef .tc b))
    (hn : ∀ w, Pipeline.arrRef spec1 w ≠ b) : W4 m ρ c (Proc.devRef .tc b) = W2 m ρ c (Proc.devRef .tc b) :=
  (W4_of_ne m ρ c b hn).trans h1

theorem W4_arg2 : W4 m ρ c (Proc.devRef .tc main_arg2) = m ((c : Thread nD τ).loc main_arg2) :=
  (W4_keep m ρ c main_arg2 (by skip_host) (by decide)).trans (W2_arg2 m ρ c)
theorem W4_arg7 : W4 m ρ c (Proc.devRef .tc main_arg7) = m ((c : Thread nD τ).loc main_arg7) :=
  (W4_keep m ρ c main_arg7 (by skip_host) (by decide)).trans (W2_arg7 m ρ c)
theorem W4_arg8 : W4 m ρ c (Proc.devRef .tc main_arg8) = m ((c : Thread nD τ).loc main_arg8) :=
  (W4_keep m ρ c main_arg8 (by skip_host) (by decide)).trans (W2_arg8 m ρ c)
theorem W4_arg9 : W4 m ρ c (Proc.devRef .tc main_arg9) = m ((c : Thread nD τ).loc main_arg9) :=
  (W4_keep m ρ c main_arg9 (by skip_host) (by decide)).trans (W2_arg9 m ρ c)
theorem W4_arg10 : W4 m ρ c (Proc.devRef .tc main_arg10) = m ((c : Thread nD τ).loc main_arg10) :=
  (W4_keep m ρ c main_arg10 (by skip_host) (by decide)).trans (W2_arg10 m ρ c)

theorem W6_keep (b : Ref sig .tc) (h2 : StableHlo.after hostOps2 (W4 m ρ c) (Proc.devRef .tc b) = W4 m ρ c (Proc.devRef .tc b))
    (hn : ∀ w, Pipeline.arrRef spec2 w ≠ b) : W6 m ρ c (Proc.devRef .tc b) = W4 m ρ c (Proc.devRef .tc b) :=
  (W6_of_ne m ρ c b hn).trans h2

theorem W8_keep (b : Ref sig .tc) (h3 : StableHlo.after hostOps3 (W6 m ρ c) (Proc.devRef .tc b) = W6 m ρ c (Proc.devRef .tc b))
    (hn : ∀ w, Pipeline.arrRef spec3 w ≠ b) : W8 m ρ c (Proc.devRef .tc b) = W6 m ρ c (Proc.devRef .tc b) :=
  (W8_of_ne m ρ c b hn).trans h3

theorem W8_arg9 : W8 m ρ c (Proc.devRef .tc main_arg9) = m ((c : Thread nD τ).loc main_arg9) :=
  ((W8_keep m ρ c main_arg9 (by skip_host) (by decide)).trans (W6_keep m ρ c main_arg9 (by skip_host) (by decide))).trans (W4_arg9 m ρ c)
theorem W8_arg10 : W8 m ρ c (Proc.devRef .tc main_arg10) = m ((c : Thread nD τ).loc main_arg10) :=
  ((W8_keep m ρ c main_arg10 (by skip_host) (by decide)).trans (W6_keep m ρ c main_arg10 (by skip_host) (by decide))).trans (W4_arg10 m ρ c)

/-! ## The operands of the three input projections -/

theorem in0_X : (V1 m ρ c main_v0 : S4096x1024.Idx → Elt F .f32)
    = shapeCast S4096x1024 (m ((c : Thread nD τ).loc main_arg0)) shapeCasts_S2048x2x1024_S4096x1024 := by
  show StableHlo.after hostOps0 (W0 m ρ c) (Proc.devRef .tc main_v0) = _
  after_results; rfl
theorem in0_W : (V1 m ρ c main_v1 : S1024x1024.Idx → Elt F .f32)
    = transpose S1024x1024 [1, 0] (m ((c : Thread nD τ).loc main_arg3)) transposes_S1024x1024_S1024x1024_1_0 := by
  show StableHlo.after hostOps0 (W0 m ρ c) (Proc.devRef .tc main_v1) = _
  after_results
theorem in0_b : (V1 m ρ c main_v2 : S1x1024.Idx → Elt F .f32)
    = shapeCast S1x1024 (m ((c : Thread nD τ).loc main_arg4)) shapeCasts_S1024_S1x1024 := by
  show StableHlo.after hostOps0 (W0 m ρ c) (Proc.devRef .tc main_v2) = _
  after_results; rfl

theorem in1_X : (V3 m ρ c main_v5 : S4096x1024.Idx → Elt F .f32)
    = shapeCast S4096x1024 (m ((c : Thread nD τ).loc main_arg1)) shapeCasts_S2048x2x1024_S4096x1024 := by
  show StableHlo.after hostOps1 (W2 m ρ c) (Proc.devRef .tc main_v5) = _
  after_results; rw [W2_arg1]; rfl
theorem in1_W : (V3 m ρ c main_v6 : S1024x1024.Idx → Elt F .f32)
    = transpose S1024x1024 [1, 0] (m ((c : Thread nD τ).loc main_arg5)) transposes_S1024x1024_S1024x1024_1_0 := by
  show StableHlo.after hostOps1 (W2 m ρ c) (Proc.devRef .tc main_v6) = _
  after_results; rw [W2_arg5]
theorem in1_b : (V3 m ρ c main_v7 : S1x1024.Idx → Elt F .f32)
    = shapeCast S1x1024 (m ((c : Thread nD τ).loc main_arg6)) shapeCasts_S1024_S1x1024 := by
  show StableHlo.after hostOps1 (W2 m ρ c) (Proc.devRef .tc main_v7) = _
  after_results; rw [W2_arg6]; rfl

theorem in2_X : (V5 m ρ c main_v10 : S4096x1024.Idx → Elt F .f32)
    = shapeCast S4096x1024 (m ((c : Thread nD τ).loc main_arg2)) shapeCasts_S2048x2x1024_S4096x1024 := by
  show StableHlo.after hostOps2 (W4 m ρ c) (Proc.devRef .tc main_v10) = _
  after_results; rw [W4_arg2]; rfl
theorem in2_W : (V5 m ρ c main_v11 : S1024x1024.Idx → Elt F .f32)
    = transpose S1024x1024 [1, 0] (m ((c : Thread nD τ).loc main_arg7)) transposes_S1024x1024_S1024x1024_1_0 := by
  show StableHlo.after hostOps2 (W4 m ρ c) (Proc.devRef .tc main_v11) = _
  after_results; rw [W4_arg7]
theorem in2_b : (V5 m ρ c main_v12 : S1x1024.Idx → Elt F .f32)
    = shapeCast S1x1024 (m ((c : Thread nD τ).loc main_arg8)) shapeCasts_S1024_S1x1024 := by
  show StableHlo.after hostOps2 (W4 m ρ c) (Proc.devRef .tc main_v12) = _
  after_results; rw [W4_arg8]; rfl

/-! ## The operands of the attention kernel -/

/-- The query projection's output, split back to [2048, 2, 1024], as the attention kernel's boundary finds it. -/
theorem W6_v4 : (W6 m ρ c (Proc.devRef .tc main_v4) : S2048x2x1024.Idx → Elt F .bf16)
    = shapeCast S2048x2x1024 ((dat0 (V1 m ρ) c).arrAt 3 cfg0.N) shapeCasts_S4096x1024_S2048x2x1024 := by
  rw [W6_keep m ρ c main_v4 (by skip_host) (by decide), W4_of_ne m ρ c main_v4 (by decide)]
  show StableHlo.after hostOps1 (W2 m ρ c) (Proc.devRef .tc main_v4) = _
  after_results
  rw [show W2 m ρ c (Proc.devRef .tc main_v3) = (dat0 (V1 m ρ) c).arrAt 3 cfg0.N from W2_arr m ρ c 3]
  rfl

/-- The key projection's output, split back to [2048, 2, 1024]. -/
theorem W6_v9 : (W6 m ρ c (Proc.devRef .tc main_v9) : S2048x2x1024.Idx → Elt F .bf16)
    = shapeCast S2048x2x1024 ((dat1 (V3 m ρ) c).arrAt 3 cfg1.N) shapeCasts_S4096x1024_S2048x2x1024 := by
  rw [W6_of_ne m ρ c main_v9 (by decide)]
  show StableHlo.after hostOps2 (W4 m ρ c) (Proc.devRef .tc main_v9) = _
  after_results
  rw [show W4 m ρ c (Proc.devRef .tc main_v8) = (dat1 (V3 m ρ) c).arrAt 3 cfg1.N from W4_arr m ρ c 3]
  rfl

theorem at3_q : (V7 m ρ c main_v16 : S2x16x2048x64.Idx → Elt F .bf16)
    = transpose S2x16x2048x64 [1, 2, 0, 3] (shapeCast S2048x2x16x64
        (shapeCast S2048x2x1024 ((dat0 (V1 m ρ) c).arrAt 3 cfg0.N) shapeCasts_S4096x1024_S2048x2x1024)
        shapeCasts_S2048x2x1024_S2048x2x16x64) transposes_S2048x2x16x64_S2x16x2048x64_1_2_0_3 := by
  show StableHlo.after hostOps3 (W6 m ρ c) (Proc.devRef .tc main_v16) = _
  after_results
  rw [W6_v4]
  rfl
theorem at3_k : (V7 m ρ c main_v18 : S2x16x64x2048.Idx → Elt F .bf16)
    = transpose S2x16x64x2048 [1, 2, 3, 0] (shapeCast S2048x2x16x64
        (shapeCast S2048x2x1024 ((dat1 (V3 m ρ) c).arrAt 3 cfg1.N) shapeCasts_S4096x1024_S2048x2x1024)
        shapeCasts_S2048x2x1024_S2048x2x16x64) transposes_S2048x2x16x64_S2x16x64x2048_1_2_3_0 := by
  show StableHlo.after hostOps3 (W6 m ρ c) (Proc.devRef .tc main_v18) = _
  after_results
  rw [W6_v9]
  rfl
theorem at3_v : (V7 m ρ c main_v20 : S2x16x2048x64.Idx → Elt F .bf16)
    = transpose S2x16x2048x64 [1, 2, 0, 3] (shapeCast S2048x2x16x64
        (shapeCast S2048x2x1024 ((dat2 (V5 m ρ) c).arrAt 3 cfg2.N) shapeCasts_S4096x1024_S2048x2x1024)
        shapeCasts_S2048x2x1024_S2048x2x16x64) transposes_S2048x2x16x64_S2x16x2048x64_1_2_0_3 := by
  show StableHlo.after hostOps3 (W6 m ρ c) (Proc.devRef .tc main_v20) = _
  after_results
  rw [show W6 m ρ c (Proc.devRef .tc main_v13) = (dat2 (V5 m ρ) c).arrAt 3 cfg2.N from W6_arr m ρ c 3]
  rfl

/-! ## The operands of the output projection -/

theorem out4_X : (V9 m ρ c main_v24 : S4096x1024.Idx → Elt F .bf16)
    = shapeCast S4096x1024 (shapeCast S2048x2x1024 (transpose S2048x2x16x64 [2, 0, 1, 3]
        ((dat3 (V7 m ρ) c).arrAt 3 cfg3.N) transposes_S2x16x2048x64_S2048x2x16x64_2_0_1_3)
        shapeCasts_S2048x2x16x64_S2048x2x1024) shapeCasts_S2048x2x1024_S4096x1024 := by
  show StableHlo.after hostOps4 (W8 m ρ c) (Proc.devRef .tc main_v24) = _
  after_results
  rw [show W8 m ρ c (Proc.devRef .tc main_v21_0) = (dat3 (V7 m ρ) c).arrAt 3 cfg3.N from W8_arr m ρ c 3]
  rfl
theorem out4_W : (V9 m ρ c main_v25 : S1024x1024.Idx → Elt F .f32)
    = transpose S1024x1024 [1, 0] (m ((c : Thread nD τ).loc main_arg9)) transposes_S1024x1024_S1024x1024_1_0 := by
  show StableHlo.after hostOps4 (W8 m ρ c) (Proc.devRef .tc main_v25) = _
  after_results; rw [W8_arg9]
theorem out4_b : (V9 m ρ c main_v26 : S1x1024.Idx → Elt F .f32)
    = shapeCast S1x1024 (m ((c : Thread nD τ).loc main_arg10)) shapeCasts_S1024_S1x1024 := by
  show StableHlo.after hostOps4 (W8 m ρ c) (Proc.devRef .tc main_v26) = _
  after_results; rw [W8_arg10]; rfl

/-! ## The two results -/

theorem res_Z : (W11 m ρ c (Proc.devRef .tc main_v28) : S2048x2x1024.Idx → Elt F .f32)
    = shapeCast S2048x2x1024 ((dat4 (V9 m ρ) c).arrAt 3 cfg4.N) shapeCasts_S4096x1024_S2048x2x1024 := by
  show StableHlo.after hostOps5 (W10 m ρ c) (Proc.devRef .tc main_v28) = _
  after_results
  rw [show W10 m ρ c (Proc.devRef .tc main_v27) = (dat4 (V9 m ρ) c).arrAt 3 cfg4.N from W10_arr m ρ c 3]
  rfl

theorem res_avg : (W11 m ρ c (Proc.devRef .tc main_v21_1) : S2x2048x2048.Idx → Elt F .f32)
    = (dat3 (V7 m ρ) c).arrAt 4 cfg3.N := by
  have h5 : StableHlo.after hostOps5 (W10 m ρ c) (Proc.devRef .tc main_v21_1) = W10 m ρ c (Proc.devRef .tc main_v21_1) := by skip_host
  have h4 : StableHlo.after hostOps4 (W8 m ρ c) (Proc.devRef .tc main_v21_1) = W8 m ρ c (Proc.devRef .tc main_v21_1) := by skip_host
  exact (h5.trans ((W10_of_ne m ρ c main_v21_1 (by decide)).trans h4)).trans (W8_arr m ρ c 4)

end Cert.KernelIdeal.Walk

end
-- ==== Proof.Layout.lean ====
/-
  The host re-layings of the tiled program, each read at an index.

  Rows of the [4096, 1024] matrix are the pairs (s, β) in row-major order, row 2 s + β; feature e of the 1024 is lane d
  of head h with e = 64 h + d. So flattening [2048, 2, 1024] to [4096, 1024] and back, splitting the feature axis into
  [16, 64] and merging it again, are all the identity on row-major positions, and the head-major arrays
  [2, 16, 2048, 64] / [2, 16, 64, 2048] are permutations of the axes of [2048, 2, 16, 64].
-/
import Idealize.ShloMosaic.Lib.Pipeline.Value
import Idealize.ShloMosaic.Lib.ValueIdx
import Idealize.ShloMosaic.Lib.ValueLayout
import proofs.«111124_j74646531604978_2_alg».proof.Proof.Spec

noncomputable section

namespace Cert.Mha.Layout

open Idealize.ShloMosaic Idealize.ShloMosaic.ValueIdx Cert.Mha

variable {α : Type}

abbrev SBHD : Shape := ⟨4, ![2048, 2, 16, 64]⟩

/-- Every row of the [4096, 1024] matrix is the pair (r / 2, r % 2). -/
theorem row_div_mod (r : Fin 4096) : row ⟨r.val / 2, by omega⟩ ⟨r.val % 2, by omega⟩ = r :=
  Fin.ext (by show r.val / 2 * 2 + r.val % 2 = r.val; omega)

/-- Every feature is lane e % 64 of head e / 64. -/
theorem col_div_mod (e : Fin 1024) : col ⟨e.val / 64, by omega⟩ ⟨e.val % 64, by omega⟩ = e :=
  Fin.ext (by show e.val / 64 * 64 + e.val % 64 = e.val; omega)

/-- [2048, 2, 1024] flattened to [4096, 1024]: row 2 s + β is the pair (s, β). -/
theorem flatten_apply (x : SBE.Idx → α) (h : SBE.ShapeCasts ME) (s : Fin 2048) (β : Fin 2) (e : Fin 1024) :
    shapeCast ME x h (ix2 (row s β) e) = x (ix3 s β e) :=
  shapeCast_apply x h _ _ (by
    rw [Shape.rowMajor_val_three, Shape.rowMajor_val_two]
    show (s.val * 2 + β.val) * 1024 + e.val = (s.val * 2 + β.val) * 1024 + e.val
    rfl)

/-- [4096, 1024] split back to [2048, 2, 1024]. -/
theorem unflatten_apply (y : ME.Idx → α) (h : ME.ShapeCasts SBE) (s : Fin 2048) (β : Fin 2) (e : Fin 1024) :
    shapeCast SBE y h (ix3 s β e) = y (ix2 (row s β) e) :=
  shapeCast_apply y h _ _ (by
    rw [Shape.rowMajor_val_three, Shape.rowMajor_val_two]
    show (s.val * 2 + β.val) * 1024 + e.val = (s.val * 2 + β.val) * 1024 + e.val
    rfl)

/-- The feature axis split into heads and lanes: [2048, 2, 1024] to [2048, 2, 16, 64]. -/
theorem heads_apply (x : SBE.Idx → α) (h : SBE.ShapeCasts SBHD) (s : Fin 2048) (β : Fin 2) (hd : Fin 16) (d : Fin 64) :
    shapeCast SBHD x h (ix4 s β hd d) = x (ix3 s β (col hd d)) :=
  shapeCast_apply x h _ _ (by
    rw [Shape.rowMajor_val_three, Shape.rowMajor_val_four]
    show (s.val * 2 + β.val) * 1024 + (hd.val * 64 + d.val) = ((s.val * 2 + β.val) * 16 + hd.val) * 64 + d.val
    ring)

/-- Heads and lanes merged back: [2048, 2, 16, 64] to [2048, 2, 1024]. -/
theorem unheads_apply (x : SBHD.Idx → α) (h : SBHD.ShapeCasts SBE) (s : Fin 2048) (β : Fin 2) (hd : Fin 16) (d : Fin 64) :
    shapeCast SBE x h (ix3 s β (col hd d)) = x (ix4 s β hd d) :=
  shapeCast_apply x h _ _ (by
    rw [Shape.rowMajor_val_three, Shape.rowMajor_val_four]
    show ((s.val * 2 + β.val) * 16 + hd.val) * 64 + d.val = (s.val * 2 + β.val) * 1024 + (hd.val * 64 + d.val)
    ring)

/-- A square matrix transposed. -/
theorem transposeW_apply (x : EE.Idx → α) (h : EE.Transposes [1, 0] EE) (e f : Fin 1024) :
    transpose EE [1, 0] x h (ix2 e f) = x (ix2 f e) :=
  transpose_apply _ x h _ _ fun c => match c with | ⟨0, _⟩ => rfl | ⟨1, _⟩ => rfl

/-- A vector as its one row. -/
theorem rowOf_apply (x : E1.Idx → α) (h : E1.ShapeCasts R1E) (f : Fin 1024) :
    shapeCast R1E x h (ix2 (0 : Fin 1) f) = x (ix1 f) :=
  shapeCast_apply x h _ _ (by
    rw [Shape.rowMajor_val_one, Shape.rowMajor_val_two]
    show f.val = 0 * 1024 + f.val
    omega)

/-- Head-major queries / values: [2048, 2, 16, 64] to [2, 16, 2048, 64]. -/
theorem toHeads_apply (x : SBHD.Idx → α) (h : SBHD.Transposes [1, 2, 0, 3] BHSD) (s : Fin 2048) (β : Fin 2) (hd : Fin 16) (d : Fin 64) :
    transpose BHSD [1, 2, 0, 3] x h (ix4 β hd s d) = x (ix4 s β hd d) :=
  transpose_apply _ x h _ _ fun c => match c with | ⟨0, _⟩ => rfl | ⟨1, _⟩ => rfl | ⟨2, _⟩ => rfl | ⟨3, _⟩ => rfl

/-- Head-major transposed keys: [2048, 2, 16, 64] to [2, 16, 64, 2048]. -/
theorem toHeadsT_apply (x : SBHD.Idx → α) (h : SBHD.Transposes [1, 2, 3, 0] BHDS) (s : Fin 2048) (β : Fin 2) (hd : Fin 16) (d : Fin 64) :
    transpose BHDS [1, 2, 3, 0] x h (ix4 β hd d s) = x (ix4 s β hd d) :=
  transpose_apply _ x h _ _ fun c => match c with | ⟨0, _⟩ => rfl | ⟨1, _⟩ => rfl | ⟨2, _⟩ => rfl | ⟨3, _⟩ => rfl

/-- Back from head-major: [2, 16, 2048, 64] to [2048, 2, 16, 64]. -/
theorem fromHeads_apply (x : BHSD.Idx → α) (h : BHSD.Transposes [2, 0, 1, 3] SBHD) (s : Fin 2048) (β : Fin 2) (hd : Fin 16) (d : Fin 64) :
    transpose SBHD [2, 0, 1, 3] x h (ix4 s β hd d) = x (ix4 β hd s d) :=
  transpose_apply _ x h _ _ fun c => match c with | ⟨0, _⟩ => rfl | ⟨1, _⟩ => rfl | ⟨2, _⟩ => rfl | ⟨3, _⟩ => rfl

end Cert.Mha.Layout

end
-- ==== Proof.Consts.lean ====
/-
  The float words the two programs spell, as the extended reals they denote: 1.0 is 1, 16.0 is 16, 0.0625 is 1/16 —
  so a product with the word of 0.0625 is the quotient by the word of 16.0 on every extended real, and a product with
  the word of 1.0 changes nothing.
-/
import Idealize.ShloMosaic.PureOps.Ideal

noncomputable section

namespace Cert.Mha.Consts

open Idealize.ShloMosaic

theorem ofBits_one : Ideal.ofBits .f32 0x3F800000#32 = 1 := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

/-- A product with the word of 1.0 is the factor itself. -/
theorem mul_one_word (x : EReal) : x * Ideal.ofBits .f32 0x3F800000#32 = x := by
  rw [ofBits_one, mul_one]

/-- A product with the word of 0.0625 is the quotient by the word of 16.0. -/
theorem mul_sixteenth (x : EReal) :
    x * Ideal.ofBits .f32 0x3D800000#32 = Ideal.div x (Ideal.ofBits .f32 0x41800000#32) := by
  rw [ofBits_sixteen, ofBits_sixteenth, Ideal.div_coe (by norm_num : (16 : ℝ) ≠ 0)]

end Cert.Mha.Consts

end
-- ==== Proof.Bridge.lean ====
/-
  From the tiled program's intermediate forms to multi-head attention as a function of the arguments.

  A linear layer on the flattened [4096, 1024] operand, with the weight transposed and the bias as one row, read at row
  2 s + β, is the projection x · Wᵀ + b at (s, β) times the layer's scalar. Attention on head-major arrays whose entries
  are those of three-axis arrays Q, K, V (entry (β, h, s, d) being (s, β, 64 h + d)) is attention on Q, K, V; the
  attended values permuted back and flattened are ctx at (s, β, e); and the head average as a product with 1/16 is the
  quotient by 16. No step needs an entry to be finite: sums are matched term by term, and the only laws used are
  x · 1 = x and x · (1/16) = x / 16.
-/
import proofs.«111124_j74646531604978_2_alg».proof.Proof.Spec
import proofs.«111124_j74646531604978_2_alg».proof.Proof.Layout
import proofs.«111124_j74646531604978_2_alg».proof.Proof.Consts

noncomputable section

namespace Cert.Mha.Bridge

open Idealize.ShloMosaic Idealize.ShloMosaic.ValueIdx Cert.Mha Cert.Mha.Layout Cert.Attn

/-- A linear layer on the flattened operand, at row 2 s + β: the projection at (s, β) times the scalar. -/
theorem linArr_flat (X : SBE.Idx → EReal) (W : EE.Idx → EReal) (b : E1.Idx → EReal) (cst : EReal)
    (hX : SBE.ShapeCasts ME) (hW : EE.Transposes [1, 0] EE) (hb : E1.ShapeCasts R1E) (s : Fin 2048) (β : Fin 2) (f : Fin 1024) :
    linArr (shapeCast ME X hX) (transpose EE [1, 0] W hW) (shapeCast R1E b hb) cst (ix2 (row s β) f) = proj X W b s β f * cst := by
  unfold linArr proj
  show ((∑ e : Fin 1024, shapeCast ME X hX (ix2 (row s β) e) * transpose EE [1, 0] W hW (ix2 e f))
    + shapeCast R1E b hb (ix2 (0 : Fin 1) f)) * cst = _
  simp only [flatten_apply, rowOf_apply]
  refine congrArg (fun S => (S + b (ix1 f)) * cst) (Finset.sum_congr rfl fun e _ => ?_)
  exact congrArg (fun w => X (ix3 s β e) * w) (transposeW_apply W hW e f)

/-- A linear layer on any [4096, 1024] operand whose row 2 s + β is C at (s, β), with scalar 1, split back to
    [2048, 2, 1024]: the projection of C. -/
theorem linArr_unflat (X4 : ME.Idx → EReal) (C : A3) (hC : ∀ s β e, X4 (ix2 (row s β) e) = C s β e)
    (W : EE.Idx → EReal) (b : E1.Idx → EReal) (hW : EE.Transposes [1, 0] EE) (hb : E1.ShapeCasts R1E) (hU : ME.ShapeCasts SBE)
    (s : Fin 2048) (β : Fin 2) (f : Fin 1024) :
    shapeCast SBE (linArr X4 (transpose EE [1, 0] W hW) (shapeCast R1E b hb) (Ideal.ofBits .f32 0x3F800000#32)) hU (ix3 s β f)
      = (∑ e : Fin 1024, C s β e * W (ix2 f e)) + b (ix1 f) := by
  rw [unflatten_apply]
  unfold linArr
  show ((∑ e : Fin 1024, X4 (ix2 (row s β) e) * transpose EE [1, 0] W hW (ix2 e f))
    + shapeCast R1E b hb (ix2 (0 : Fin 1) f)) * Ideal.ofBits .f32 0x3F800000#32 = _
  simp only [hC, rowOf_apply, Consts.mul_one_word]
  refine congrArg (fun S => S + b (ix1 f)) (Finset.sum_congr rfl fun e _ => ?_)
  exact congrArg (fun w => C s β e * w) (transposeW_apply W hW e f)

/-- A [4096, 1024] array split to [2048, 2, 1024], its features split into heads, in head-major order, at (β, h, s, d):
    the array at row 2 s + β, feature 64 h + d. -/
theorem headMajor_apply (P : ME.Idx → EReal) (hU : ME.ShapeCasts SBE) (hH : SBE.ShapeCasts SBHD)
    (hT : SBHD.Transposes [1, 2, 0, 3] BHSD) (β : Fin 2) (h : Fin 16) (s : Fin 2048) (d : Fin 64) :
    transpose BHSD [1, 2, 0, 3] (shapeCast SBHD (shapeCast SBE P hU) hH) hT (ix4 β h s d) = P (ix2 (row s β) (col h d)) := by
  rw [toHeads_apply, heads_apply, unflatten_apply]

/-- The same with the position axis last (the transposed keys), at (β, h, d, s). -/
theorem headMajorT_apply (P : ME.Idx → EReal) (hU : ME.ShapeCasts SBE) (hH : SBE.ShapeCasts SBHD)
    (hT : SBHD.Transposes [1, 2, 3, 0] BHDS) (β : Fin 2) (h : Fin 16) (d : Fin 64) (s : Fin 2048) :
    transpose BHDS [1, 2, 3, 0] (shapeCast SBHD (shapeCast SBE P hU) hH) hT (ix4 β h d s) = P (ix2 (row s β) (col h d)) := by
  rw [toHeadsT_apply, heads_apply, unflatten_apply]

/-- A head-major array permuted back, its heads merged and the rows flattened, at row 2 s + β and feature e: the array at
    (β, e / 64, s, e % 64). -/
theorem fromHeadMajor_apply (Cx : BHSD.Idx → EReal) (hT : BHSD.Transposes [2, 0, 1, 3] SBHD) (hM : SBHD.ShapeCasts SBE)
    (hF : SBE.ShapeCasts ME) (s : Fin 2048) (β : Fin 2) (e : Fin 1024) :
    shapeCast ME (shapeCast SBE (transpose SBHD [2, 0, 1, 3] Cx hT) hM) hF (ix2 (row s β) e)
      = Cx (ix4 β ⟨e.val / 64, by omega⟩ s ⟨e.val % 64, by omega⟩) := by
  rw [flatten_apply]
  conv_lhs => rw [← col_div_mod e]
  rw [unheads_apply, fromHeads_apply]

section Attention

variable (Q K V : A3) (qh : BHSD.Idx → EReal) (kT : BHDS.Idx → EReal) (vh : BHSD.Idx → EReal)
variable (hq : ∀ β h s d, qh (ix4 β h s d) = Q s β (col h d))
variable (hk : ∀ β h d s, kT (ix4 β h d s) = K s β (col h d))
variable (hv : ∀ β h s d, vh (ix4 β h s d) = V s β (col h d))

include hq hk in
theorem scoreA_eq (β : Fin 2) (h : Fin 16) (q k : Fin 2048) : scoreA qh kT β h q k = score Q K β h q k := by
  unfold scoreA score
  simp only [hq, hk]

include hq hk in
theorem attnA_eq (β : Fin 2) (h : Fin 16) (q : Fin 2048) : attnA qh kT β h q = attn Q K β h q := by
  unfold attnA attn
  exact congrArg softmaxRow (funext fun k => scoreA_eq Q K qh kT hq hk β h q k)

include hq hk hv in
theorem ctxArr_eq (β : Fin 2) (h : Fin 16) (q : Fin 2048) (d : Fin 64) :
    ctxArr qh kT vh (ix4 β h q d) = ctx Q K V q β h d := by
  unfold ctxArr ctx
  show ∑ k : Fin 2048, attnA qh kT β h q k * vh (ix4 β h k d) = _
  simp only [attnA_eq Q K qh kT hq hk, hv]

include hq hk in
theorem avgArr_eq (β : Fin 2) (q k : Fin 2048) :
    avgArr qh kT (ix3 β q k) = Ideal.div (∑ h : Fin 16, attn Q K β h q k) (Ideal.ofBits .f32 0x41800000#32) := by
  unfold avgArr
  show (∑ h : Fin 16, attnA qh kT β h q k) * Ideal.ofBits .f32 0x3D800000#32 = _
  simp only [attnA_eq Q K qh kT hq hk, Consts.mul_sixteenth]

end Attention

end Cert.Mha.Bridge

end
-- ==== Proof.Compose.lean ====
/-
  The tiled program's two results as multi-head attention of the argument arrays.

  Given what each tiled kernel leaves in its output array as a function of its operand arrays — a linear layer
  (X · Wt + b) · c for kernels 0, 1, 2 and 4, attention on head-major arrays for kernel 3 — the walk through the program's
  boundaries and the re-layings read at an index give: the attention kernel's queries, transposed keys and values are
  the scaled query projection, the key projection and the value projection of the arguments at (s, β, 64 h + d); the
  output projection's operand is the attended values at (s, β, e); so the first result is the output projection of the
  attended values and the second the head average of the attention weights.
-/
import proofs.«111124_j74646531604978_2_alg».proof.Proof.KernelWalk
import proofs.«111124_j74646531604978_2_alg».proof.Proof.Bridge

set_option maxRecDepth 16384

noncomputable section

namespace Cert.KernelIdeal.Compose

open Cert.KernelIdeal Cert.KernelIdeal.Gen Cert.KernelIdeal.Walk
open Idealize.ShloMosaic Idealize.ShloMosaic.TcCoe Idealize.ShloMosaic.ValueIdx Idealize.SL.Sem
open Cert.Mha Cert.Mha.Bridge

/-- Buffer contents at a region's entry. -/
abbrev Contents : Type := (c : Dev nD) → (b : Ref sig .tc) → Buf (Elt Ideal) ((c : Thread nD τ).loc b)

variable (m : (ℓ : Loc nD τ sig) → Buf (Elt Ideal) ℓ) (ρ : Dev nD → PrngReg) (c : Dev nD)

variable
  (h0 : ∀ (V : Contents) (c : Dev nD), (dat0 (F := Ideal) V c).arrAt 3 cfg0.N
    = linArr (V c main_v0) (V c main_v1) (V c main_v2) (Ideal.ofBits .f32 0x3E000000#32))
  (h1 : ∀ (V : Contents) (c : Dev nD), (dat1 (F := Ideal) V c).arrAt 3 cfg1.N
    = linArr (V c main_v5) (V c main_v6) (V c main_v7) (Ideal.ofBits .f32 0x3F800000#32))
  (h2 : ∀ (V : Contents) (c : Dev nD), (dat2 (F := Ideal) V c).arrAt 3 cfg2.N
    = linArr (V c main_v10) (V c main_v11) (V c main_v12) (Ideal.ofBits .f32 0x3F800000#32))
  (h3c : ∀ (V : Contents) (c : Dev nD), (dat3 (F := Ideal) V c).arrAt 3 cfg3.N
    = ctxArr (V c main_v16) (V c main_v18) (V c main_v20))
  (h3a : ∀ (V : Contents) (c : Dev nD), (dat3 (F := Ideal) V c).arrAt 4 cfg3.N
    = avgArr (V c main_v16) (V c main_v18))
  (h4 : ∀ (V : Contents) (c : Dev nD), (dat4 (F := Ideal) V c).arrAt 3 cfg4.N
    = linArr (V c main_v24) (V c main_v25) (V c main_v26) (Ideal.ofBits .f32 0x3F800000#32))

/-- The scaled query projection of the arguments. -/
abbrev Qm : A3 := qproj (m ((c : Thread nD τ).loc main_arg0)) (m ((c : Thread nD τ).loc main_arg3)) (m ((c : Thread nD τ).loc main_arg4))
/-- The key projection. -/
abbrev Km : A3 := proj (m ((c : Thread nD τ).loc main_arg1)) (m ((c : Thread nD τ).loc main_arg5)) (m ((c : Thread nD τ).loc main_arg6))
/-- The value projection. -/
abbrev Vm : A3 := proj (m ((c : Thread nD τ).loc main_arg2)) (m ((c : Thread nD τ).loc main_arg7)) (m ((c : Thread nD τ).loc main_arg8))

include h0 in
/-- The attention kernel's queries at (β, h, s, d): the scaled query projection at (s, β, 64 h + d). -/
theorem q_entry (β : Fin 2) (h : Fin 16) (s : Fin 2048) (d : Fin 64) :
    (V7 m ρ c main_v16 : S2x16x2048x64.Idx → EReal) (ix4 β h s d) = Qm m c s β (col h d) := by
  rw [at3_q, h0 (V1 m ρ) c, in0_X, in0_W, in0_b]
  exact (headMajor_apply _ _ _ _ β h s d).trans (linArr_flat _ _ _ _ _ _ _ s β (col h d))

include h1 in
/-- The attention kernel's transposed keys at (β, h, d, s): the key projection at (s, β, 64 h + d). -/
theorem k_entry (β : Fin 2) (h : Fin 16) (d : Fin 64) (s : Fin 2048) :
    (V7 m ρ c main_v18 : S2x16x64x2048.Idx → EReal) (ix4 β h d s) = Km m c s β (col h d) := by
  rw [at3_k, h1 (V3 m ρ) c, in1_X, in1_W, in1_b]
  exact ((headMajorT_apply _ _ _ _ β h d s).trans (linArr_flat _ _ _ _ _ _ _ s β (col h d))).trans (Consts.mul_one_word _)

include h2 in
/-- The attention kernel's values at (β, h, s, d): the value projection at (s, β, 64 h + d). -/
theorem v_entry (β : Fin 2) (h : Fin 16) (s : Fin 2048) (d : Fin 64) :
    (V7 m ρ c main_v20 : S2x16x2048x64.Idx → EReal) (ix4 β h s d) = Vm m c s β (col h d) := by
  rw [at3_v, h2 (V5 m ρ) c, in2_X, in2_W, in2_b]
  exact ((headMajor_apply _ _ _ _ β h s d).trans (linArr_flat _ _ _ _ _ _ _ s β (col h d))).trans (Consts.mul_one_word _)

include h0 h1 h2 h3c in
/-- The output projection's operand at row 2 s + β, feature e: the attended values at (s, β, e). -/
theorem x4_entry (s : Fin 2048) (β : Fin 2) (e : Fin 1024) :
    (V9 m ρ c main_v24 : S4096x1024.Idx → EReal) (ix2 (row s β) e) = ctxE (Qm m c) (Km m c) (Vm m c) s β e := by
  rw [out4_X, h3c (V7 m ρ) c]
  exact (fromHeadMajor_apply _ _ _ _ s β e).trans
    (ctxArr_eq (Qm m c) (Km m c) (Vm m c) _ _ _ (q_entry m ρ c h0) (k_entry m ρ c h1) (v_entry m ρ c h2) β _ s _)

include h0 h1 h2 h3c h4 in
/-- The first result: the output projection of the attended values. -/
theorem kernel_Z : (W11 m ρ c (Proc.devRef .tc main_v28) : S2048x2x1024.Idx → EReal)
    = Zarr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  funext i
  obtain ⟨s, β, f, rfl⟩ : ∃ (s : Fin 2048) (β : Fin 2) (f : Fin 1024), i = ix3 s β f := ⟨i 0, i 1, i 2, eq_ix3 i⟩
  rw [res_Z, h4 (V9 m ρ) c, out4_W, out4_b]
  exact linArr_unflat _ (ctxE (Qm m c) (Km m c) (Vm m c)) (x4_entry m ρ c h0 h1 h2 h3c) _ _ _ _ _ s β f

include h0 h1 h3a in
/-- The second result: the attention weights averaged over the heads. -/
theorem kernel_avg : (W11 m ρ c (Proc.devRef .tc main_v21_1) : S2x2048x2048.Idx → EReal)
    = AvgArr (m ((c : Thread nD τ).loc main_arg0)) (m ((c : Thread nD τ).loc main_arg1))
        (m ((c : Thread nD τ).loc main_arg3)) (m ((c : Thread nD τ).loc main_arg4)) (m ((c : Thread nD τ).loc main_arg5))
        (m ((c : Thread nD τ).loc main_arg6)) := by
  funext i
  obtain ⟨β, q, k, rfl⟩ : ∃ (β : Fin 2) (q k : Fin 2048), i = ix3 β q k := ⟨i 0, i 1, i 2, eq_ix3 i⟩
  rw [res_avg, h3a (V7 m ρ) c]
  exact avgArr_eq (Qm m c) (Km m c) _ _ (q_entry m ρ c h0) (k_entry m ρ c h1) β q k

end Cert.KernelIdeal.Compose

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.LinearBody.lean ====
/-
  The linear-layer tile at one entry.

  A tile holds 512 rows of a matrix x : [512, 1024], all of a matrix w : [1024, 1024] (already transposed to
  [in, out]) and a one-row bias b : [1, 1024]; it stores ((x · w) + b broadcast along the rows) · κ for a scalar κ.
  At the ideal values a change of float format is the identity, a cast between equal shapes is the identity, and the
  product into a zero accumulator is the plain sum over the contracted coordinate, so the stored value at (p, q) is
      ((∑ e, x[p,e] · w[e,q]) + b[0,q]) · κ.
  Four tiles of this form occur; they differ in κ (the f32 words of 0.125 and of 1.0) and in the formats of x and of
  the result, which the ideal values do not see.
-/
import proofs.«111124_j74646531604978_2_alg».proof.Proof.Gen.KernelIdeal.Frame
import proofs.«111124_j74646531604978_2_alg».proof.Proof.LibMlpAt
import Idealize.ShloMosaic.Lib.Pipeline.Value
import Idealize.ShloMosaic.Lib.ValueIdx
import Idealize.ShloMosaic.Lib.ValueLayout

noncomputable section

namespace Cert.Mha.Lin

open Cert.KernelIdeal Cert.KernelIdeal.Gen Idealize.ShloMosaic Idealize.ShloMosaic.ValueIdx

/-- The zero offsets of a rank-2 rectangle, however spelt. -/
theorem hz : (![0, 0] : Fin 2 → Nat) = fun _ => 0 := funext fun a => by fin_cases a <;> rfl

/-- Tile 0's stored value at (p, q): the affine map of row p of x, scaled by the f32 word of 0.125. -/
theorem pay0_at (x0 : Vec Ideal S512x1024 .f32) (x1 : Vec Ideal S1024x1024 .f32) (x2 : Vec Ideal S1x1024 .f32)
    (p : Fin 512) (q : Fin 1024) :
    k0_pay1 x0 x1 x2 (ix2 p q)
      = ((∑ e : Fin 1024, x0 (ix2 p e) * x1 (ix2 e q)) + x2 (ix2 (0 : Fin 1) q)) * Ideal.ofBits .f32 0x3E000000#32 := by
  unfold k0_pay1
  rw [truncf_apply, mulf_apply, addf_apply, broadcast_apply, broadcastTo_1b_ab_apply]
  simp only [shapeCast_self]
  show (_ + x2 (ix2 (0 : Fin 1) q)) * Ideal.ofBits .f32 0x3E000000#32 = _
  refine congrArg (fun s : EReal => (s + x2 (ix2 (0 : Fin 1) q)) * Ideal.ofBits .f32 0x3E000000#32) ?_
  refine (Cert.Mlp.matmul_zero_at dot_S512x1024_S1024x1024_S512x1024_1_0_0_1_n_n_wf none _ _ p q).trans ?_
  refine Finset.sum_congr rfl fun e _ => ?_
  rw [truncf_apply, truncf_apply]

/-- What tile 0 leaves in its output block, at (p, q): its one store covers the block, and its loads read the whole
    input blocks. -/
theorem out0_at (x0 : Vec Ideal S512x1024 .f32) (x1 : Vec Ideal S1024x1024 .f32) (x2 : Vec Ideal S1x1024 .f32)
    (p : Fin 512) (q : Fin 1024) :
    out0_3 x0 x1 x2 (ix2 p q)
      = ((∑ e : Fin 1024, x0 (ix2 p e) * x1 (ix2 e q)) + x2 (ix2 (0 : Fin 1) q)) * Ideal.ofBits .f32 0x3E000000#32 := by
  unfold out0_3
  rw [View.canon_unit_zero hz]
  simp only [View.ld_unit_zero (S := S512x1024) hz, View.ld_unit_zero (S := S1024x1024) hz, View.ld_unit_zero (S := S1x1024) hz]
  exact pay0_at x0 x1 x2 p q

/-- Tile 1's stored value at (p, q): the affine map of row p of x, scaled by the f32 word of 1.0. -/
theorem pay1_at (x0 : Vec Ideal S512x1024 .f32) (x1 : Vec Ideal S1024x1024 .f32) (x2 : Vec Ideal S1x1024 .f32)
    (p : Fin 512) (q : Fin 1024) :
    k1_pay1 x0 x1 x2 (ix2 p q)
      = ((∑ e : Fin 1024, x0 (ix2 p e) * x1 (ix2 e q)) + x2 (ix2 (0 : Fin 1) q)) * Ideal.ofBits .f32 0x3F800000#32 := by
  unfold k1_pay1
  rw [truncf_apply, mulf_apply, addf_apply, broadcast_apply, broadcastTo_1b_ab_apply]
  simp only [shapeCast_self]
  show (_ + x2 (ix2 (0 : Fin 1) q)) * Ideal.ofBits .f32 0x3F800000#32 = _
  refine congrArg (fun s : EReal => (s + x2 (ix2 (0 : Fin 1) q)) * Ideal.ofBits .f32 0x3F800000#32) ?_
  refine (Cert.Mlp.matmul_zero_at dot_S512x1024_S1024x1024_S512x1024_1_0_0_1_n_n_wf none _ _ p q).trans ?_
  refine Finset.sum_congr rfl fun e _ => ?_
  rw [truncf_apply, truncf_apply]

/-- What tile 1 leaves in its output block, at (p, q): its one store covers the block, and its loads read the whole
    input blocks. -/
theorem out1_at (x0 : Vec Ideal S512x1024 .f32) (x1 : Vec Ideal S1024x1024 .f32) (x2 : Vec Ideal S1x1024 .f32)
    (p : Fin 512) (q : Fin 1024) :
    out1_3 x0 x1 x2 (ix2 p q)
      = ((∑ e : Fin 1024, x0 (ix2 p e) * x1 (ix2 e q)) + x2 (ix2 (0 : Fin 1) q)) * Ideal.ofBits .f32 0x3F800000#32 := by
  unfold out1_3
  rw [View.canon_unit_zero hz]
  simp only [View.ld_unit_zero (S := S512x1024) hz, View.ld_unit_zero (S := S1024x1024) hz, View.ld_unit_zero (S := S1x1024) hz]
  exact pay1_at x0 x1 x2 p q

/-- Tile 2's stored value at (p, q): the affine map of row p of x, scaled by the f32 word of 1.0. -/
theorem pay2_at (x0 : Vec Ideal S512x1024 .f32) (x1 : Vec Ideal S1024x1024 .f32) (x2 : Vec Ideal S1x1024 .f32)
    (p : Fin 512) (q : Fin 1024) :
    k2_pay1 x0 x1 x2 (ix2 p q)
      = ((∑ e : Fin 1024, x0 (ix2 p e) * x1 (ix2 e q)) + x2 (ix2 (0 : Fin 1) q)) * Ideal.ofBits .f32 0x3F800000#32 := by
  unfold k2_pay1
  rw [truncf_apply, mulf_apply, addf_apply, broadcast_apply, broadcastTo_1b_ab_apply]
  simp only [shapeCast_self]
  show (_ + x2 (ix2 (0 : Fin 1) q)) * Ideal.ofBits .f32 0x3F800000#32 = _
  refine congrArg (fun s : EReal => (s + x2 (ix2 (0 : Fin 1) q)) * Ideal.ofBits .f32 0x3F800000#32) ?_
  refine (Cert.Mlp.matmul_zero_at dot_S512x1024_S1024x1024_S512x1024_1_0_0_1_n_n_wf none _ _ p q).trans ?_
  refine Finset.sum_congr rfl fun e _ => ?_
  rw [truncf_apply, truncf_apply]

/-- What tile 2 leaves in its output block, at (p, q): its one store covers the block, and its loads read the whole
    input blocks. -/
theorem out2_at (x0 : Vec Ideal S512x1024 .f32) (x1 : Vec Ideal S1024x1024 .f32) (x2 : Vec Ideal S1x1024 .f32)
    (p : Fin 512) (q : Fin 1024) :
    out2_3 x0 x1 x2 (ix2 p q)
      = ((∑ e : Fin 1024, x0 (ix2 p e) * x1 (ix2 e q)) + x2 (ix2 (0 : Fin 1) q)) * Ideal.ofBits .f32 0x3F800000#32 := by
  unfold out2_3
  rw [View.canon_unit_zero hz]
  simp only [View.ld_unit_zero (S := S512x1024) hz, View.ld_unit_zero (S := S1024x1024) hz, View.ld_unit_zero (S := S1x1024) hz]
  exact pay2_at x0 x1 x2 p q

/-- Tile 4's stored value at (p, q): the affine map of row p of x, scaled by the f32 word of 1.0. -/
theorem pay4_at (x0 : Vec Ideal S512x1024 .bf16) (x1 : Vec Ideal S1024x1024 .f32) (x2 : Vec Ideal S1x1024 .f32)
    (p : Fin 512) (q : Fin 1024) :
    k4_pay1 x0 x1 x2 (ix2 p q)
      = ((∑ e : Fin 1024, x0 (ix2 p e) * x1 (ix2 e q)) + x2 (ix2 (0 : Fin 1) q)) * Ideal.ofBits .f32 0x3F800000#32 := by
  unfold k4_pay1
  rw [mulf_apply, addf_apply, broadcast_apply, broadcastTo_1b_ab_apply]
  simp only [shapeCast_self]
  show (_ + x2 (ix2 (0 : Fin 1) q)) * Ideal.ofBits .f32 0x3F800000#32 = _
  refine congrArg (fun s : EReal => (s + x2 (ix2 (0 : Fin 1) q)) * Ideal.ofBits .f32 0x3F800000#32) ?_
  refine (Cert.Mlp.matmul_zero_at dot_S512x1024_S1024x1024_S512x1024_1_0_0_1_n_n_wf none _ _ p q).trans ?_
  refine Finset.sum_congr rfl fun e _ => ?_
  rw [truncf_apply]

/-- What tile 4 leaves in its output block, at (p, q): its one store covers the block, and its loads read the whole
    input blocks. -/
theorem out4_at (x0 : Vec Ideal S512x1024 .bf16) (x1 : Vec Ideal S1024x1024 .f32) (x2 : Vec Ideal S1x1024 .f32)
    (p : Fin 512) (q : Fin 1024) :
    out4_3 x0 x1 x2 (ix2 p q)
      = ((∑ e : Fin 1024, x0 (ix2 p e) * x1 (ix2 e q)) + x2 (ix2 (0 : Fin 1) q)) * Ideal.ofBits .f32 0x3F800000#32 := by
  unfold out4_3
  rw [View.canon_unit_zero hz]
  simp only [View.ld_unit_zero (S := S512x1024) hz, View.ld_unit_zero (S := S1024x1024) hz, View.ld_unit_zero (S := S1x1024) hz]
  exact pay4_at x0 x1 x2 p q

end Cert.Mha.Lin

end
-- ==== Proof.LinearRegion.lean ====
/-
  The four linear layers of the tiled program, each as one function of the arrays it finds.

  Each layer runs over 8 grid points; point t holds rows 512 t … 512 t + 511 of the [4096, 1024] matrix X, all of the
  [1024, 1024] matrix Wt and all of the one-row bias, and writes rows 512 t … 512 t + 511 of the result. A tile's value
  at (p, q) is the affine map of row p of its block of X, so what point t writes back is its block of the one array
      (r, f) ↦ ((∑ e, X[r,e] · Wt[e,f]) + b[0,f]) · κ,
  and the 8 blocks cover the 4096 rows (row r is in block r / 512): the result array ends holding that function.
-/
import proofs.«111124_j74646531604978_2_alg».proof.Proof.LinearBody
import proofs.«111124_j74646531604978_2_alg».proof.Proof.Spec
import Idealize.ShloMosaic.Lib.Pipeline.Value

noncomputable section

namespace Cert.Mha.Lin

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## Layer 0 -/

/-- The block indices at point t: the blocks of X and of the result are the t-th row blocks, Wt and the bias are whole. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of X at point t is rows 512 t … 512 t + 511 of X. -/
theorem blkX0 (c : Dev nD) (t : Fin cfg0.N) (x : S512x1024.Idx) (k : S4096x1024.Idx)
    (hk0 : (k 0).val = 512 * t.val + (x 0).val) (hk1 : (k 1).val = (x 1).val) :
    (iblk0 V c 0 t : Vec Ideal S512x1024 .f32) x = (V c main_v0 : S4096x1024.Idx → Elt Ideal .f32) k := by
  obtain ⟨e0, e1, -⟩ := idx0 t
  unfold iblk0
  rw [View.read_apply]
  show V c main_v0 _ = V c main_v0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-- The block of Wt at every point is Wt. -/
theorem blkW0 (c : Dev nD) (t : Fin cfg0.N) (x : S1024x1024.Idx) :
    (iblk0 V c 1 t : Vec Ideal S1024x1024 .f32) x = (V c main_v1 : S1024x1024.Idx → Elt Ideal .f32) x := by
  obtain ⟨-, -, e2, e3, -⟩ := idx0 t
  unfold iblk0
  rw [View.read_apply]
  show V c main_v1 _ = V c main_v1 _
  congr 1
  funext a
  apply Fin.ext
  match a with
  | ⟨0, _⟩ => show win0_1.index t (0 : Fin 2) * 1024 + 1 * (x 0).val = (x 0).val; rw [e2]; omega
  | ⟨1, _⟩ => show win0_1.index t (1 : Fin 2) * 1024 + 1 * (x 1).val = (x 1).val; rw [e3]; omega

/-- The block of the bias at every point is the bias. -/
theorem blkB0 (c : Dev nD) (t : Fin cfg0.N) (x : S1x1024.Idx) :
    (iblk0 V c 2 t : Vec Ideal S1x1024 .f32) x = (V c main_v2 : S1x1024.Idx → Elt Ideal .f32) x := by
  obtain ⟨-, -, -, -, e4, e5, -⟩ := idx0 t
  unfold iblk0
  rw [View.read_apply]
  show V c main_v2 _ = V c main_v2 _
  congr 1
  funext a
  apply Fin.ext
  match a with
  | ⟨0, _⟩ => show win0_2.index t (0 : Fin 2) * 1 + 1 * (x 0).val = (x 0).val; rw [e4]; omega
  | ⟨1, _⟩ => show win0_2.index t (1 : Fin 2) * 1024 + 1 * (x 1).val = (x 1).val; rw [e5]; omega

/-- What point t writes back is its block of the layer's function of the arrays the region finds. -/
theorem flushed0_eq (c : Dev nD) (t : Fin cfg0.N) :
    (dat0 (F := Ideal) V c).flushed 3 t
      = ((cfg0.win 3).blk t).view.read (Elt Ideal)
          (Cert.Mha.linArr (V c main_v0) (V c main_v1) (V c main_v2) (Ideal.ofBits .f32 0x3E000000#32)) := by
  show (cfg0.win 3).cut (grid0.coords t) ((dat0 V c).after 3 t) = _
  rw [after0_3]
  obtain ⟨-, -, -, -, -, -, e6, e7⟩ := idx0 t
  show (fun j : S512x1024.Idx => out0_3 (iblk0 V c 0 t) (iblk0 V c 1 t) (iblk0 V c 2 t) j)
    = fun j : S512x1024.Idx => Cert.Mha.linArr (V c main_v0) (V c main_v1) (V c main_v2) (Ideal.ofBits .f32 0x3E000000#32)
        (((cfg0.win 3).blk t).view.emb j)
  funext j
  obtain ⟨p, q, rfl⟩ : ∃ (p : Fin 512) (q : Fin 1024), j = ix2 p q := ⟨j 0, j 1, eq_ix2 j⟩
  refine (out0_at (iblk0 V c 0 t) (iblk0 V c 1 t) (iblk0 V c 2 t) p q).trans ?_
  unfold Cert.Mha.linArr
  have h0 : ((((cfg0.win 3).blk t).view.emb (ix2 p q) : S4096x1024.Idx) 0).val = 512 * t.val + p.val := by
    show win0_3.index t (0 : Fin 2) * 512 + 1 * p.val = _; rw [e6]; omega
  have h1 : ((((cfg0.win 3).blk t).view.emb (ix2 p q) : S4096x1024.Idx) 1).val = q.val := by
    show win0_3.index t (1 : Fin 2) * 1024 + 1 * q.val = _; rw [e7]; omega
  refine congrArg₂ (fun s u : EReal => (s + u) * Ideal.ofBits .f32 0x3E000000#32) (Finset.sum_congr rfl fun e _ => congrArg₂ (fun s u : EReal => s * u) ?_ ?_) ?_
  · exact blkX0 V c t (ix2 p e) _ h0 rfl
  · exact (blkW0 V c t (ix2 e q)).trans (congrArg (V c main_v1 : S1024x1024.Idx → Elt Ideal .f32) (by
      funext a; apply Fin.ext
      match a with
      | ⟨0, _⟩ => rfl
      | ⟨1, _⟩ => exact h1.symm))
  · exact (blkB0 V c t (ix2 (0 : Fin 1) q)).trans (congrArg (V c main_v2 : S1x1024.Idx → Elt Ideal .f32) (by
      funext a; apply Fin.ext
      match a with
      | ⟨0, _⟩ => rfl
      | ⟨1, _⟩ => exact h1.symm))

/-- A row of the array is in point t's block iff it is one of rows 512 t … 512 t + 511. -/
theorem mem_blk0 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- Every entry of the array is in some point's block: row r is in block r / 512. -/
theorem cover0 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 8 := N_0
  let t : Fin cfg0.N := ⟨(i 0).val / 512, by rw [hN]; omega⟩
  obtain ⟨-, -, -, -, -, -, e6, e7⟩ := idx0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; rw [e6]; show (i 0).val / 512 * 512 ≤ (i 0).val ∧ (i 0).val < (i 0).val / 512 * 512 + 512; omega
  | ⟨1, _⟩ => show win0_3.index t (1 : Fin 2) * 1024 ≤ (i 1).val ∧ (i 1).val < win0_3.index t (1 : Fin 2) * 1024 + 1024; rw [e7]; omega

/-- THE RESULT ARRAY of layer 0 after its region: the layer's function of the arrays the region finds. -/
theorem arr0 (c : Dev nD) :
    (dat0 (F := Ideal) V c).arrAt 3 cfg0.N
      = Cert.Mha.linArr (V c main_v0) (V c main_v1) (V c main_v2) (Ideal.ofBits .f32 0x3E000000#32) :=
  (dat0 (F := Ideal) V c).arrAt_eq_of_cover 3 _ (fun t _ => flushed0_eq V c t) (cover0)

/-! ## Layer 1 -/

/-- The block indices at point t: the blocks of X and of the result are the t-th row blocks, Wt and the bias are whole. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of X at point t is rows 512 t … 512 t + 511 of X. -/
theorem blkX1 (c : Dev nD) (t : Fin cfg1.N) (x : S512x1024.Idx) (k : S4096x1024.Idx)
    (hk0 : (k 0).val = 512 * t.val + (x 0).val) (hk1 : (k 1).val = (x 1).val) :
    (iblk1 V c 0 t : Vec Ideal S512x1024 .f32) x = (V c main_v5 : S4096x1024.Idx → Elt Ideal .f32) k := by
  obtain ⟨e0, e1, -⟩ := idx1 t
  unfold iblk1
  rw [View.read_apply]
  show V c main_v5 _ = V c main_v5 _
  congr 1
  funext a
  apply Fin.ext
  match a with
  | ⟨0, _⟩ => show win1_0.index t (0 : Fin 2) * 512 + 1 * (x 0).val = (k 0).val; rw [e0, hk0]; omega
  | ⟨1, _⟩ => show win1_0.index t (1 : Fin 2) * 1024 + 1 * (x 1).val = (k 1).val; rw [e1, hk1]; omega

/-- The block of Wt at every point is Wt. -/
theorem blkW1 (c : Dev nD) (t : Fin cfg1.N) (x : S1024x1024.Idx) :
    (iblk1 V c 1 t : Vec Ideal S1024x1024 .f32) x = (V c main_v6 : S1024x1024.Idx → Elt Ideal .f32) x := by
  obtain ⟨-, -, e2, e3, -⟩ := idx1 t
  unfold iblk1
  rw [View.read_apply]
  show V c main_v6 _ = V c main_v6 _
  congr 1
  funext a
  apply Fin.ext
  match a with
  | ⟨0, _⟩ => show win1_1.index t (0 : Fin 2) * 1024 + 1 * (x 0).val = (x 0).val; rw [e2]; omega
  | ⟨1, _⟩ => show win1_1.index t (1 : Fin 2) * 1024 + 1 * (x 1).val = (x 1).val; rw [e3]; omega

/-- The block of the bias at every point is the bias. -/
theorem blkB1 (c : Dev nD) (t : Fin cfg1.N) (x : S1x1024.Idx) :
    (iblk1 V c 2 t : Vec Ideal S1x1024 .f32) x = (V c main_v7 : S1x1024.Idx → Elt Ideal .f32) x := by
  obtain ⟨-, -, -, -, e4, e5, -⟩ := idx1 t
  unfold iblk1
  rw [View.read_apply]
  show V c main_v7 _ = V c main_v7 _
  congr 1
  funext a
  apply Fin.ext
  match a with
  | ⟨0, _⟩ => show win1_2.index t (0 : Fin 2) * 1 + 1 * (x 0).val = (x 0).val; rw [e4]; omega
  | ⟨1, _⟩ => show win1_2.index t (1 : Fin 2) * 1024 + 1 * (x 1).val = (x 1).val; rw [e5]; omega

/-- What point t writes back is its block of the layer's function of the arrays the region finds. -/
theorem flushed1_eq (c : Dev nD) (t : Fin cfg1.N) :
    (dat1 (F := Ideal) V c).flushed 3 t
      = ((cfg1.win 3).blk t).view.read (Elt Ideal)
          (Cert.Mha.linArr (V c main_v5) (V c main_v6) (V c main_v7) (Ideal.ofBits .f32 0x3F800000#32)) := by
  show (cfg1.win 3).cut (grid1.coords t) ((dat1 V c).after 3 t) = _
  rw [after1_3]
  obtain ⟨-, -, -, -, -, -, e6, e7⟩ := idx1 t
  show (fun j : S512x1024.Idx => out1_3 (iblk1 V c 0 t) (iblk1 V c 1 t) (iblk1 V c 2 t) j)
    = fun j : S512x1024.Idx => Cert.Mha.linArr (V c main_v5) (V c main_v6) (V c main_v7) (Ideal.ofBits .f32 0x3F800000#32)
        (((cfg1.win 3).blk t).view.emb j)
  funext j
  obtain ⟨p, q, rfl⟩ : ∃ (p : Fin 512) (q : Fin 1024), j = ix2 p q := ⟨j 0, j 1, eq_ix2 j⟩
  refine (out1_at (iblk1 V c 0 t) (iblk1 V c 1 t) (iblk1 V c 2 t) p q).trans ?_
  unfold Cert.Mha.linArr
  have h0 : ((((cfg1.win 3).blk t).view.emb (ix2 p q) : S4096x1024.Idx) 0).val = 512 * t.val + p.val := by
    show win1_3.index t (0 : Fin 2) * 512 + 1 * p.val = _; rw [e6]; omega
  have h1 : ((((cfg1.win 3).blk t).view.emb (ix2 p q) : S4096x1024.Idx) 1).val = q.val := by
    show win1_3.index t (1 : Fin 2) * 1024 + 1 * q.val = _; rw [e7]; omega
  refine congrArg₂ (fun s u : EReal => (s + u) * Ideal.ofBits .f32 0x3F800000#32) (Finset.sum_congr rfl fun e _ => congrArg₂ (fun s u : EReal => s * u) ?_ ?_) ?_
  · exact blkX1 V c t (ix2 p e) _ h0 rfl
  · exact (blkW1 V c t (ix2 e q)).trans (congrArg (V c main_v6 : S1024x1024.Idx → Elt Ideal .f32) (by
      funext a; apply Fin.ext
      match a with
      | ⟨0, _⟩ => rfl
      | ⟨1, _⟩ => exact h1.symm))
  · exact (blkB1 V c t (ix2 (0 : Fin 1) q)).trans (congrArg (V c main_v7 : S1x1024.Idx → Elt Ideal .f32) (by
      funext a; apply Fin.ext
      match a with
      | ⟨0, _⟩ => rfl
      | ⟨1, _⟩ => exact h1.symm))

/-- A row of the array is in point t's block iff it is one of rows 512 t … 512 t + 511. -/
theorem mem_blk1 (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v8).slice (win1_3.rect t)).set ↔ _
  rw [View.set_slice_whole, Rect.mem_set_unit]
  exact Iff.rfl

/-- Every entry of the array is in some point's block: row r is in block r / 512. -/
theorem cover1 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 8 := N_1
  let t : Fin cfg1.N := ⟨(i 0).val / 512, by rw [hN]; omega⟩
  obtain ⟨-, -, -, -, -, -, e6, e7⟩ := idx1 t
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; rw [e6]; show (i 0).val / 512 * 512 ≤ (i 0).val ∧ (i 0).val < (i 0).val / 512 * 512 + 512; omega
  | ⟨1, _⟩ => show win1_3.index t (1 : Fin 2) * 1024 ≤ (i 1).val ∧ (i 1).val < win1_3.index t (1 : Fin 2) * 1024 + 1024; rw [e7]; omega

/-- THE RESULT ARRAY of layer 1 after its region: the layer's function of the arrays the region finds. -/
theorem arr1 (c : Dev nD) :
    (dat1 (F := Ideal) V c).arrAt 3 cfg1.N
      = Cert.Mha.linArr (V c main_v5) (V c main_v6) (V c main_v7) (Ideal.ofBits .f32 0x3F800000#32) :=
  (dat1 (F := Ideal) V c).arrAt_eq_of_cover 3 _ (fun t _ => flushed1_eq V c t) (cover1)

/-! ## Layer 2 -/

/-- The block indices at point t: the blocks of X and of the result are the t-th row blocks, Wt and the bias are whole. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The block of X at point t is rows 512 t … 512 t + 511 of X. -/
theorem blkX2 (c : Dev nD) (t : Fin cfg2.N) (x : S512x1024.Idx) (k : S4096x1024.Idx)
    (hk0 : (k 0).val = 512 * t.val + (x 0).val) (hk1 : (k 1).val = (x 1).val) :
    (iblk2 V c 0 t : Vec Ideal S512x1024 .f32) x = (V c main_v10 : S4096x1024.Idx → Elt Ideal .f32) k := by
  obtain ⟨e0, e1, -⟩ := idx2 t
  unfold iblk2
  rw [View.read_apply]
  show V c main_v10 _ = V c main_v10 _
  congr 1
  funext a
  apply Fin.ext
  match a with
  | ⟨0, _⟩ => show win2_0.index t (0 : Fin 2) * 512 + 1 * (x 0).val = (k 0).val; rw [e0, hk0]; omega
  | ⟨1, _⟩ => show win2_0.index t (1 : Fin 2) * 1024 + 1 * (x 1).val = (k 1).val; rw [e1, hk1]; omega

/-- The block of Wt at every point is Wt. -/
theorem blkW2 (c : Dev nD) (t : Fin cfg2.N) (x : S1024x1024.Idx) :
    (iblk2 V c 1 t : Vec Ideal S1024x1024 .f32) x = (V c main_v11 : S1024x1024.Idx → Elt Ideal .f32) x := by
  obtain ⟨-, -, e2, e3, -⟩ := idx2 t
  unfold iblk2
  rw [View.read_apply]
  show V c main_v11 _ = V c main_v11 _
  congr 1
  funext a
  apply Fin.ext
  match a with
  | ⟨0, _⟩ => show win2_1.index t (0 : Fin 2) * 1024 + 1 * (x 0).val = (x 0).val; rw [e2]; omega
  | ⟨1, _⟩ => show win2_1.index t (1 : Fin 2) * 1024 + 1 * (x 1).val = (x 1).val; rw [e3]; omega

/-- The block of the bias at every point is the bias. -/
theorem blkB2 (c : Dev nD) (t : Fin cfg2.N) (x : S1x1024.Idx) :
    (iblk2 V c 2 t : Vec Ideal S1x1024 .f32) x = (V c main_v12 : S1x1024.Idx → Elt Ideal .f32) x := by
  obtain ⟨-, -, -, -, e4, e5, -⟩ := idx2 t
  unfold iblk2
  rw [View.read_apply]
  show V c main_v12 _ = V c main_v12 _
  congr 1
  funext a
  apply Fin.ext
  match a with
  | ⟨0, _⟩ => show win2_2.index t (0 : Fin 2) * 1 + 1 * (x 0).val = (x 0).val; rw [e4]; omega
  | ⟨1, _⟩ => show win2_2.index t (1 : Fin 2) * 1024 + 1 * (x 1).val = (x 1).val; rw [e5]; omega

/-- What point t writes back is its block of the layer's function of the arrays the region finds. -/
theorem flushed2_eq (c : Dev nD) (t : Fin cfg2.N) :
    (dat2 (F := Ideal) V c).flushed 3 t
      = ((cfg2.win 3).blk t).view.read (Elt Ideal)
          (Cert.Mha.linArr (V c main_v10) (V c main_v11) (V c main_v12) (Ideal.ofBits .f32 0x3F800000#32)) := by
  show (cfg2.win 3).cut (grid2.coords t) ((dat2 V c).after 3 t) = _
  rw [after2_3]
  obtain ⟨-, -, -, -, -, -, e6, e7⟩ := idx2 t
  show (fun j : S512x1024.Idx => out2_3 (iblk2 V c 0 t) (iblk2 V c 1 t) (iblk2 V c 2 t) j)
    = fun j : S512x1024.Idx => Cert.Mha.linArr (V c main_v10) (V c main_v11) (V c main_v12) (Ideal.ofBits .f32 0x3F800000#32)
        (((cfg2.win 3).blk t).view.emb j)
  funext j
  obtain ⟨p, q, rfl⟩ : ∃ (p : Fin 512) (q : Fin 1024), j = ix2 p q := ⟨j 0, j 1, eq_ix2 j⟩
  refine (out2_at (iblk2 V c 0 t) (iblk2 V c 1 t) (iblk2 V c 2 t) p q).trans ?_
  unfold Cert.Mha.linArr
  have h0 : ((((cfg2.win 3).blk t).view.emb (ix2 p q) : S4096x1024.Idx) 0).val = 512 * t.val + p.val := by
    show win2_3.index t (0 : Fin 2) * 512 + 1 * p.val = _; rw [e6]; omega
  have h1 : ((((cfg2.win 3).blk t).view.emb (ix2 p q) : S4096x1024.Idx) 1).val = q.val := by
    show win2_3.index t (1 : Fin 2) * 1024 + 1 * q.val = _; rw [e7]; omega
  refine congrArg₂ (fun s u : EReal => (s + u) * Ideal.ofBits .f32 0x3F800000#32) (Finset.sum_congr rfl fun e _ => congrArg₂ (fun s u : EReal => s * u) ?_ ?_) ?_
  · exact blkX2 V c t (ix2 p e) _ h0 rfl
  · exact (blkW2 V c t (ix2 e q)).trans (congrArg (V c main_v11 : S1024x1024.Idx → Elt Ideal .f32) (by
      funext a; apply Fin.ext
      match a with
      | ⟨0, _⟩ => rfl
      | ⟨1, _⟩ => exact h1.symm))
  · exact (blkB2 V c t (ix2 (0 : Fin 1) q)).trans (congrArg (V c main_v12 : S1x1024.Idx → Elt Ideal .f32) (by
      funext a; apply Fin.ext
      match a with
      | ⟨0, _⟩ => rfl
      | ⟨1, _⟩ => exact h1.symm))

/-- A row of the array is in point t's block iff it is one of rows 512 t … 512 t + 511. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v13).slice (win2_3.rect t)).set ↔ _
  rw [View.set_slice_whole, Rect.mem_set_unit]
  exact Iff.rfl

/-- Every entry of the array is in some point's block: row r is in block r / 512. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 8 := N_2
  let t : Fin cfg2.N := ⟨(i 0).val / 512, by rw [hN]; omega⟩
  obtain ⟨-, -, -, -, -, -, e6, e7⟩ := idx2 t
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; rw [e6]; show (i 0).val / 512 * 512 ≤ (i 0).val ∧ (i 0).val < (i 0).val / 512 * 512 + 512; omega
  | ⟨1, _⟩ => show win2_3.index t (1 : Fin 2) * 1024 ≤ (i 1).val ∧ (i 1).val < win2_3.index t (1 : Fin 2) * 1024 + 1024; rw [e7]; omega

/-- THE RESULT ARRAY of layer 2 after its region: the layer's function of the arrays the region finds. -/
theorem arr2 (c : Dev nD) :
    (dat2 (F := Ideal) V c).arrAt 3 cfg2.N
      = Cert.Mha.linArr (V c main_v10) (V c main_v11) (V c main_v12) (Ideal.ofBits .f32 0x3F800000#32) :=
  (dat2 (F := Ideal) V c).arrAt_eq_of_cover 3 _ (fun t _ => flushed2_eq V c t) (cover2)

/-! ## Layer 4 -/

/-- The block indices at point t: the blocks of X and of the result are the t-th row blocks, Wt and the bias are whole. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The block of X at point t is rows 512 t … 512 t + 511 of X. -/
theorem blkX4 (c : Dev nD) (t : Fin cfg4.N) (x : S512x1024.Idx) (k : S4096x1024.Idx)
    (hk0 : (k 0).val = 512 * t.val + (x 0).val) (hk1 : (k 1).val = (x 1).val) :
    (iblk4 V c 0 t : Vec Ideal S512x1024 .bf16) x = (V c main_v24 : S4096x1024.Idx → Elt Ideal .bf16) k := by
  obtain ⟨e0, e1, -⟩ := idx4 t
  unfold iblk4
  rw [View.read_apply]
  show V c main_v24 _ = V c main_v24 _
  congr 1
  funext a
  apply Fin.ext
  match a with
  | ⟨0, _⟩ => show win4_0.index t (0 : Fin 2) * 512 + 1 * (x 0).val = (k 0).val; rw [e0, hk0]; omega
  | ⟨1, _⟩ => show win4_0.index t (1 : Fin 2) * 1024 + 1 * (x 1).val = (k 1).val; rw [e1, hk1]; omega

/-- The block of Wt at every point is Wt. -/
theorem blkW4 (c : Dev nD) (t : Fin cfg4.N) (x : S1024x1024.Idx) :
    (iblk4 V c 1 t : Vec Ideal S1024x1024 .f32) x = (V c main_v25 : S1024x1024.Idx → Elt Ideal .f32) x := by
  obtain ⟨-, -, e2, e3, -⟩ := idx4 t
  unfold iblk4
  rw [View.read_apply]
  show V c main_v25 _ = V c main_v25 _
  congr 1
  funext a
  apply Fin.ext
  match a with
  | ⟨0, _⟩ => show win4_1.index t (0 : Fin 2) * 1024 + 1 * (x 0).val = (x 0).val; rw [e2]; omega
  | ⟨1, _⟩ => show win4_1.index t (1 : Fin 2) * 1024 + 1 * (x 1).val = (x 1).val; rw [e3]; omega

/-- The block of the bias at every point is the bias. -/
theorem blkB4 (c : Dev nD) (t : Fin cfg4.N) (x : S1x1024.Idx) :
    (iblk4 V c 2 t : Vec Ideal S1x1024 .f32) x = (V c main_v26 : S1x1024.Idx → Elt Ideal .f32) x := by
  obtain ⟨-, -, -, -, e4, e5, -⟩ := idx4 t
  unfold iblk4
  rw [View.read_apply]
  show V c main_v26 _ = V c main_v26 _
  congr 1
  funext a
  apply Fin.ext
  match a with
  | ⟨0, _⟩ => show win4_2.index t (0 : Fin 2) * 1 + 1 * (x 0).val = (x 0).val; rw [e4]; omega
  | ⟨1, _⟩ => show win4_2.index t (1 : Fin 2) * 1024 + 1 * (x 1).val = (x 1).val; rw [e5]; omega

/-- What point t writes back is its block of the layer's function of the arrays the region finds. -/
theorem flushed4_eq (c : Dev nD) (t : Fin cfg4.N) :
    (dat4 (F := Ideal) V c).flushed 3 t
      = ((cfg4.win 3).blk t).view.read (Elt Ideal)
          (Cert.Mha.linArr (V c main_v24) (V c main_v25) (V c main_v26) (Ideal.ofBits .f32 0x3F800000#32)) := by
  show (cfg4.win 3).cut (grid4.coords t) ((dat4 V c).after 3 t) = _
  rw [after4_3]
  obtain ⟨-, -, -, -, -, -, e6, e7⟩ := idx4 t
  show (fun j : S512x1024.Idx => out4_3 (iblk4 V c 0 t) (iblk4 V c 1 t) (iblk4 V c 2 t) j)
    = fun j : S512x1024.Idx => Cert.Mha.linArr (V c main_v24) (V c main_v25) (V c main_v26) (Ideal.ofBits .f32 0x3F800000#32)
        (((cfg4.win 3).blk t).view.emb j)
  funext j
  obtain ⟨p, q, rfl⟩ : ∃ (p : Fin 512) (q : Fin 1024), j = ix2 p q := ⟨j 0, j 1, eq_ix2 j⟩
  refine (out4_at (iblk4 V c 0 t) (iblk4 V c 1 t) (iblk4 V c 2 t) p q).trans ?_
  unfold Cert.Mha.linArr
  have h0 : ((((cfg4.win 3).blk t).view.emb (ix2 p q) : S4096x1024.Idx) 0).val = 512 * t.val + p.val := by
    show win4_3.index t (0 : Fin 2) * 512 + 1 * p.val = _; rw [e6]; omega
  have h1 : ((((cfg4.win 3).blk t).view.emb (ix2 p q) : S4096x1024.Idx) 1).val = q.val := by
    show win4_3.index t (1 : Fin 2) * 1024 + 1 * q.val = _; rw [e7]; omega
  refine congrArg₂ (fun s u : EReal => (s + u) * Ideal.ofBits .f32 0x3F800000#32) (Finset.sum_congr rfl fun e _ => congrArg₂ (fun s u : EReal => s * u) ?_ ?_) ?_
  · exact blkX4 V c t (ix2 p e) _ h0 rfl
  · exact (blkW4 V c t (ix2 e q)).trans (congrArg (V c main_v25 : S1024x1024.Idx → Elt Ideal .f32) (by
      funext a; apply Fin.ext
      match a with
      | ⟨0, _⟩ => rfl
      | ⟨1, _⟩ => exact h1.symm))
  · exact (blkB4 V c t (ix2 (0 : Fin 1) q)).trans (congrArg (V c main_v26 : S1x1024.Idx → Elt Ideal .f32) (by
      funext a; apply Fin.ext
      match a with
      | ⟨0, _⟩ => rfl
      | ⟨1, _⟩ => exact h1.symm))

/-- A row of the array is in point t's block iff it is one of rows 512 t … 512 t + 511. -/
theorem mem_blk4 (t : Fin cfg4.N) (i : S4096x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v27).slice (win4_3.rect t)).set ↔ _
  rw [View.set_slice_whole, Rect.mem_set_unit]
  exact Iff.rfl

/-- Every entry of the array is in some point's block: row r is in block r / 512. -/
theorem cover4 (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  have hN : cfg4.N = 8 := N_4
  let t : Fin cfg4.N := ⟨(i 0).val / 512, by rw [hN]; omega⟩
  obtain ⟨-, -, -, -, -, -, e6, e7⟩ := idx4 t
  refine ⟨t, flush4_3 t, ?_⟩
  rw [mem_blk4]
  intro a
  match a with
  | ⟨0, _⟩ => show win4_3.index t (0 : Fin 2) * 512 ≤ (i 0).val ∧ (i 0).val < win4_3.index t (0 : Fin 2) * 512 + 512; rw [e6]; show (i 0).val / 512 * 512 ≤ (i 0).val ∧ (i 0).val < (i 0).val / 512 * 512 + 512; omega
  | ⟨1, _⟩ => show win4_3.index t (1 : Fin 2) * 1024 ≤ (i 1).val ∧ (i 1).val < win4_3.index t (1 : Fin 2) * 1024 + 1024; rw [e7]; omega

/-- THE RESULT ARRAY of layer 4 after its region: the layer's function of the arrays the region finds. -/
theorem arr4 (c : Dev nD) :
    (dat4 (F := Ideal) V c).arrAt 3 cfg4.N
      = Cert.Mha.linArr (V c main_v24) (V c main_v25) (V c main_v26) (Ideal.ofBits .f32 0x3F800000#32) :=
  (dat4 (F := Ideal) V c).arrAt_eq_of_cover 3 _ (fun t _ => flushed4_eq V c t) (cover4)

end Cert.Mha.Lin

end
-- ==== Proof.AttnPieces.lean ====
/-
  What one grid point of the attention region leaves in its two output blocks, in each of the three control cases, as
  the body's arithmetic of the blocks it reads — for any float values.

  The body always stores the attended values once, over the whole block. The averaged-weights block is an accumulator
  over the sixteen heads: at the first head it is zeroed and the zero block read back; at every head the weights are
  added to what the block holds and the sum stored; at the last head the block is read back once more and stored
  scaled. Every store and load goes through the whole block, so a later store overwrites the earlier ones and a load
  after a store reads that store's payload.
-/
import proofs.«111124_j74646531604978_2_alg».proof.Proof.Gen.KernelIdeal.Frame
import Idealize.ShloMosaic.Lib.Pipeline.Value
import Idealize.ShloMosaic.Lib.Tactic

noncomputable section
namespace Cert.Mha.AttnR
open Cert.KernelIdeal Cert.KernelIdeal.Gen Idealize.ShloMosaic Idealize.ShloMosaic.TcCoe Idealize.SL.Sem

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- Case A: the attended-values block is left by one store over the whole block, of the three input blocks read whole. -/
theorem out_A_3 (c : Dev nD) (i : grid3.Coords) (a3 : Memref sig .tc .vmem S1x1x512x64 .bf16) (h3 : a3.IsWhole) (a4 : Memref sig .tc .vmem S1x1x64x2048 .bf16) (h4 : a4.IsWhole) (a5 : Memref sig .tc .vmem S1x1x2048x64 .bf16) (h5 : a5.IsWhole) (a6 : Memref sig .tc .vmem S1x1x512x64 .bf16) (h6 : a6.IsWhole) (a7 : Memref sig .tc .vmem S1x512x2048 .f32) (h7 : a7.IsWhole) (hc0 : cond3_0 i) (hc1 : ¬cond3_1 i) (x0 : Vec F S1x1x512x64 .bf16) (x1 : Vec F S1x1x64x2048 .bf16) (x2 : Vec F S1x1x2048x64 .bf16) :
    out3_A_3 c i a3 h3 a4 h4 a5 h5 a6 h6 a7 h7 hc0 hc1 x0 x1 x2 = k3_pay4 x0 x1 x2 := by
  unfold out3_A_3
  rw [View.read_writes_eq_canon _ _ _ (cover3_A_3 c i a3 h3 a4 h4 a5 h5 a6 h6 a7 h7 hc0 hc1 x0 x1 x2)]
  unfold kernelRun3_A
  dsimp only
  rw [View.canon_unit_zero hz4]
  simp only [View.readAt_eq_ld, h3.read_unread, h4.read_unread, h5.read_unread, View.ld_unit_zero (S := S1x1x512x64) hz4, View.ld_unit_zero (S := S1x1x64x2048) hz4, View.ld_unit_zero (S := S1x1x2048x64) hz4]

/-- Case B: the attended-values block is left by one store over the whole block, of the three input blocks read whole. -/
theorem out_B_3 (c : Dev nD) (i : grid3.Coords) (a3 : Memref sig .tc .vmem S1x1x512x64 .bf16) (h3 : a3.IsWhole) (a4 : Memref sig .tc .vmem S1x1x64x2048 .bf16) (h4 : a4.IsWhole) (a5 : Memref sig .tc .vmem S1x1x2048x64 .bf16) (h5 : a5.IsWhole) (a6 : Memref sig .tc .vmem S1x1x512x64 .bf16) (h6 : a6.IsWhole) (a7 : Memref sig .tc .vmem S1x512x2048 .f32) (h7 : a7.IsWhole) (hc0 : ¬cond3_0 i) (hc1 : ¬cond3_1 i) (x0 : Vec F S1x1x512x64 .bf16) (x1 : Vec F S1x1x64x2048 .bf16) (x2 : Vec F S1x1x2048x64 .bf16) (xo4 : Vec F S1x512x2048 .f32) :
    out3_B_3 c i a3 h3 a4 h4 a5 h5 a6 h6 a7 h7 hc0 hc1 x0 x1 x2 xo4 = k3_pay4 x0 x1 x2 := by
  unfold out3_B_3
  rw [View.read_writes_eq_canon _ _ _ (cover3_B_3 c i a3 h3 a4 h4 a5 h5 a6 h6 a7 h7 hc0 hc1 x0 x1 x2 xo4)]
  unfold kernelRun3_B
  dsimp only
  rw [View.canon_unit_zero hz4]
  simp only [View.readAt_eq_ld, h3.read_unread, h4.read_unread, h5.read_unread, View.ld_unit_zero (S := S1x1x512x64) hz4, View.ld_unit_zero (S := S1x1x64x2048) hz4, View.ld_unit_zero (S := S1x1x2048x64) hz4]

/-- Case C: the attended-values block is left by one store over the whole block, of the three input blocks read whole. -/
theorem out_C_3 (c : Dev nD) (i : grid3.Coords) (a3 : Memref sig .tc .vmem S1x1x512x64 .bf16) (h3 : a3.IsWhole) (a4 : Memref sig .tc .vmem S1x1x64x2048 .bf16) (h4 : a4.IsWhole) (a5 : Memref sig .tc .vmem S1x1x2048x64 .bf16) (h5 : a5.IsWhole) (a6 : Memref sig .tc .vmem S1x1x512x64 .bf16) (h6 : a6.IsWhole) (a7 : Memref sig .tc .vmem S1x512x2048 .f32) (h7 : a7.IsWhole) (hc0 : ¬cond3_0 i) (hc1 : cond3_1 i) (x0 : Vec F S1x1x512x64 .bf16) (x1 : Vec F S1x1x64x2048 .bf16) (x2 : Vec F S1x1x2048x64 .bf16) (xo4 : Vec F S1x512x2048 .f32) :
    out3_C_3 c i a3 h3 a4 h4 a5 h5 a6 h6 a7 h7 hc0 hc1 x0 x1 x2 xo4 = k3_pay4 x0 x1 x2 := by
  unfold out3_C_3
  rw [View.read_writes_eq_canon _ _ _ (cover3_C_3 c i a3 h3 a4 h4 a5 h5 a6 h6 a7 h7 hc0 hc1 x0 x1 x2 xo4)]
  unfold kernelRun3_C
  dsimp only
  rw [View.canon_unit_zero hz4]
  simp only [View.readAt_eq_ld, h3.read_unread, h4.read_unread, h5.read_unread, View.ld_unit_zero (S := S1x1x512x64) hz4, View.ld_unit_zero (S := S1x1x64x2048) hz4, View.ld_unit_zero (S := S1x1x2048x64) hz4]

/-- First head: the accumulator is zeroed, the zero block read back, the weights added to it and the sum stored. -/
theorem out_A_4 (c : Dev nD) (i : grid3.Coords) (a3 : Memref sig .tc .vmem S1x1x512x64 .bf16) (h3 : a3.IsWhole) (a4 : Memref sig .tc .vmem S1x1x64x2048 .bf16) (h4 : a4.IsWhole) (a5 : Memref sig .tc .vmem S1x1x2048x64 .bf16) (h5 : a5.IsWhole) (a6 : Memref sig .tc .vmem S1x1x512x64 .bf16) (h6 : a6.IsWhole) (a7 : Memref sig .tc .vmem S1x512x2048 .f32) (h7 : a7.IsWhole) (hc0 : cond3_0 i) (hc1 : ¬cond3_1 i) (x0 : Vec F S1x1x512x64 .bf16) (x1 : Vec F S1x1x64x2048 .bf16) (x2 : Vec F S1x1x2048x64 .bf16) :
    out3_A_4 c i a3 h3 a4 h4 a5 h5 a6 h6 a7 h7 hc0 hc1 x0 x1 x2 = k3_pay1 (k3_pay6 x0 x1 (k3_pay5 (F := F))) := by
  unfold out3_A_4
  rw [View.read_writes_eq_canon _ _ _ (cover3_A_4 c i a3 h3 a4 h4 a5 h5 a6 h6 a7 h7 hc0 hc1 x0 x1 x2)]
  unfold kernelRun3_A
  dsimp only
  sl_unfold_words
  rw [View.canon_cons_unit_zero (S := S1x512x2048) hz3, View.readCov_unit_zero (S := S1x512x2048) _ hz3]
  simp only [View.readAt_eq_ld, h3.read_unread, h4.read_unread, View.ld_unit_zero (S := S1x1x512x64) hz4, View.ld_unit_zero (S := S1x1x64x2048) hz4]

/-- A middle head: the weights are added to what the accumulator holds (`xo4`) and the sum stored. -/
theorem out_B_4 (c : Dev nD) (i : grid3.Coords) (a3 : Memref sig .tc .vmem S1x1x512x64 .bf16) (h3 : a3.IsWhole) (a4 : Memref sig .tc .vmem S1x1x64x2048 .bf16) (h4 : a4.IsWhole) (a5 : Memref sig .tc .vmem S1x1x2048x64 .bf16) (h5 : a5.IsWhole) (a6 : Memref sig .tc .vmem S1x1x512x64 .bf16) (h6 : a6.IsWhole) (a7 : Memref sig .tc .vmem S1x512x2048 .f32) (h7 : a7.IsWhole) (hc0 : ¬cond3_0 i) (hc1 : ¬cond3_1 i) (x0 : Vec F S1x1x512x64 .bf16) (x1 : Vec F S1x1x64x2048 .bf16) (x2 : Vec F S1x1x2048x64 .bf16) (xo4 : Vec F S1x512x2048 .f32) :
    out3_B_4 c i a3 h3 a4 h4 a5 h5 a6 h6 a7 h7 hc0 hc1 x0 x1 x2 xo4 = k3_pay1 (k3_pay6 x0 x1 xo4) := by
  unfold out3_B_4
  rw [View.read_writes_eq_canon _ _ _ (cover3_B_4 c i a3 h3 a4 h4 a5 h5 a6 h6 a7 h7 hc0 hc1 x0 x1 x2 xo4)]
  unfold kernelRun3_B
  dsimp only
  sl_unfold_words
  rw [View.canon_unit_zero hz3]
  simp only [View.readAt_eq_ld, h3.read_unread, h4.read_unread, h7.read_unread, View.ld_unit_zero (S := S1x1x512x64) hz4, View.ld_unit_zero (S := S1x1x64x2048) hz4, View.ld_unit_zero (S := S1x512x2048) hz3]

/-- Last head: as a middle head, then the stored sum is read back and stored scaled. -/
theorem out_C_4 (c : Dev nD) (i : grid3.Coords) (a3 : Memref sig .tc .vmem S1x1x512x64 .bf16) (h3 : a3.IsWhole) (a4 : Memref sig .tc .vmem S1x1x64x2048 .bf16) (h4 : a4.IsWhole) (a5 : Memref sig .tc .vmem S1x1x2048x64 .bf16) (h5 : a5.IsWhole) (a6 : Memref sig .tc .vmem S1x1x512x64 .bf16) (h6 : a6.IsWhole) (a7 : Memref sig .tc .vmem S1x512x2048 .f32) (h7 : a7.IsWhole) (hc0 : ¬cond3_0 i) (hc1 : cond3_1 i) (x0 : Vec F S1x1x512x64 .bf16) (x1 : Vec F S1x1x64x2048 .bf16) (x2 : Vec F S1x1x2048x64 .bf16) (xo4 : Vec F S1x512x2048 .f32) :
    out3_C_4 c i a3 h3 a4 h4 a5 h5 a6 h6 a7 h7 hc0 hc1 x0 x1 x2 xo4 = k3_pay2 (k3_pay1 (k3_pay6 x0 x1 xo4)) := by
  unfold out3_C_4
  rw [View.read_writes_eq_canon _ _ _ (cover3_C_4 c i a3 h3 a4 h4 a5 h5 a6 h6 a7 h7 hc0 hc1 x0 x1 x2 xo4)]
  unfold kernelRun3_C
  dsimp only
  sl_unfold_words
  rw [View.canon_cons_unit_zero (S := S1x512x2048) hz3, View.readCov_unit_zero (S := S1x512x2048) _ hz3]
  simp only [View.readAt_eq_ld, h3.read_unread, h4.read_unread, h7.read_unread, View.ld_unit_zero (S := S1x1x512x64) hz4, View.ld_unit_zero (S := S1x1x64x2048) hz4, View.ld_unit_zero (S := S1x512x2048) hz3]

end Cert.Mha.AttnR
end
-- ==== Proof.AttnBody.lean ====
/-
  The attention body's arithmetic at the ideal values, read at one entry.

  For a block q of 512 query rows (64 lanes each), the transposed keys kT (64 × 2048) and the values v (2048 × 64) of
  one head:
    weights (r, k)  = the softmax over k of the row  k ↦ Σ_d q[r,d] · kT[d,k]
    attended (r, d) = Σ_k weights (r, k) · v[k,d]
  and for the running sum acc of the weights over the heads: the zero block is 0 everywhere, a step adds the weights
  entrywise, the final step multiplies every entry by the f32 word of 1/16. Narrowing to bf16 keeps the ideal value,
  and re-laying a block with leading unit axes moves no entry.
-/
import proofs.«111124_j74646531604978_2_alg».proof.Proof.Gen.KernelIdeal.Skeleton
import proofs.«111124_j74646531604978_2_alg».proof.Proof.Spec
import proofs.«111124_j74646531604978_2_alg».proof.Proof.LibSoftmaxRows
import proofs.«111124_j74646531604978_2_alg».proof.Proof.LibMlpAt
import Idealize.ShloMosaic.Lib.ValueLayout

noncomputable section
namespace Cert.Mha.AttnR
open Cert.KernelIdeal Cert.KernelIdeal.Gen Idealize.ShloMosaic Idealize.ShloMosaic.TcCoe Idealize.SL.Sem

open Idealize.ShloMosaic.ValueIdx Cert.Attn

/-- The scores of query row `r` of a block against the keys: the row of the product q · kT. -/
def blkScore (x0 : Vec Ideal S1x1x512x64 .bf16) (x1 : Vec Ideal S1x1x64x2048 .bf16) (r : Fin 512) (k : Fin 2048) : EReal :=
  ∑ d : Fin 64, x0 (ix4 (0 : Fin 1) (0 : Fin 1) r d) * x1 (ix4 (0 : Fin 1) (0 : Fin 1) d k)

/-- The attention weights of a block at (r, k): the softmax of row r of the scores. -/
theorem pay3_apply (x0 : Vec Ideal S1x1x512x64 .bf16) (x1 : Vec Ideal S1x1x64x2048 .bf16) (r : Fin 512) (k : Fin 2048) :
    k3_pay3 (F := Ideal) x0 x1 (ix2 r k) = softmaxRow (fun k' : Fin 2048 => blkScore x0 x1 r k') k := by
  unfold k3_pay3
  refine (RowOps.overSum_vec (a := 512) (b := 2048) _ reduces_S512x2048_S512 (.inl rfl) rfl shapeCasts_S512_S512x1 broadcasts_S512x1_S512x2048 r k).trans ?_
  unfold softmaxRow
  refine congrArg (fun g => overSum g k) ?_
  funext k'
  refine (RowOps.expShift_vec (a := 512) (b := 2048) _ reduces_S512x2048_S512 (.inl rfl) rfl shapeCasts_S512_S512x1 broadcasts_S512x1_S512x2048 r k').trans ?_
  refine congrArg (fun f => expShift f k') ?_
  funext k''
  refine (Cert.Mlp.matmul_zero_at dot_S512x64_S64x2048_S512x2048_1_0_0_1_n_n_wf none _ _ r k'').trans ?_
  unfold blkScore
  refine Finset.sum_congr rfl fun d _ => ?_
  exact congrArg₂ (· * ·) (RowOps.shapeCast_11ab_ab_apply x0 shapeCasts_S1x1x512x64_S512x64 r d)
    (RowOps.shapeCast_11ab_ab_apply x1 shapeCasts_S1x1x64x2048_S64x2048 d k'')

/-- The attended values of a block at (r, d): the weights of row r against column d of the values. -/
theorem pay4_apply (x0 : Vec Ideal S1x1x512x64 .bf16) (x1 : Vec Ideal S1x1x64x2048 .bf16) (x2 : Vec Ideal S1x1x2048x64 .bf16)
    (u w : Fin 1) (r : Fin 512) (d : Fin 64) :
    k3_pay4 (F := Ideal) x0 x1 x2 (ix4 u w r d)
      = ∑ k : Fin 2048, k3_pay3 (F := Ideal) x0 x1 (ix2 r k) * x2 (ix4 (0 : Fin 1) (0 : Fin 1) k d) := by
  unfold k3_pay4
  refine (RowOps.shapeCast_ab_11ab_apply _ shapeCasts_S512x64_S1x1x512x64 u w r d).trans ?_
  refine (truncf_apply _ bitsLt_bf16_f32 (ix2 r d)).trans ?_
  refine (Cert.Mlp.matmul_zero_at dot_S512x2048_S2048x64_S512x64_1_0_0_1_n_n_wf none _ _ r d).trans ?_
  refine Finset.sum_congr rfl fun k _ => ?_
  exact congrArg₂ (· * ·) (truncf_apply _ bitsLt_bf16_f32 (ix2 r k))
    (RowOps.shapeCast_11ab_ab_apply x2 shapeCasts_S1x1x2048x64_S2048x64 k d)

/-- The zero block. -/
theorem pay5_apply (u : Fin 1) (r : Fin 512) (k : Fin 2048) :
    k3_pay5 (F := Ideal) (ix3 u r k) = Ideal.ofBits .f32 0x00000000#32 := by
  unfold k3_pay5
  exact shapeCast_ab_1ab_apply _ shapeCasts_S512x2048_S1x512x2048 u r k

/-- One accumulation step at (r, k): what the block held plus the weights. -/
theorem pay6_apply (x0 : Vec Ideal S1x1x512x64 .bf16) (x1 : Vec Ideal S1x1x64x2048 .bf16) (acc : Vec Ideal S1x512x2048 .f32)
    (r : Fin 512) (k : Fin 2048) :
    k3_pay6 (F := Ideal) x0 x1 acc (ix2 r k) = acc (ix3 (0 : Fin 1) r k) + k3_pay3 (F := Ideal) x0 x1 (ix2 r k) := by
  unfold k3_pay6
  exact congrArg (· + k3_pay3 (F := Ideal) x0 x1 (ix2 r k)) (shapeCast_1ab_ab_apply acc shapeCasts_S1x512x2048_S512x2048 r k)

/-- Re-laying the sum as a block with a leading unit axis moves no entry. -/
theorem pay1_apply (s : FVec Ideal S512x2048 .f32) (u : Fin 1) (r : Fin 512) (k : Fin 2048) :
    k3_pay1 (F := Ideal) s (ix3 u r k) = s (ix2 r k) := by
  unfold k3_pay1
  exact shapeCast_ab_1ab_apply s shapeCasts_S512x2048_S1x512x2048 u r k

/-- The final scaling at (r, k): the entry times the f32 word of 1/16. -/
theorem pay2_apply (acc : Vec Ideal S1x512x2048 .f32) (u : Fin 1) (r : Fin 512) (k : Fin 2048) :
    k3_pay2 (F := Ideal) acc (ix3 u r k) = acc (ix3 (0 : Fin 1) r k) * Ideal.ofBits .f32 0x3D800000#32 := by
  unfold k3_pay2
  refine (shapeCast_ab_1ab_apply _ shapeCasts_S512x2048_S1x512x2048 u r k).trans ?_
  exact congrArg (· * Ideal.ofBits .f32 0x3D800000#32) (shapeCast_1ab_ab_apply acc shapeCasts_S1x512x2048_S512x2048 r k)

end Cert.Mha.AttnR
end
-- ==== Proof.AttnPoints.lean ====
/-
  The attention region point by point. Point t of the grid is (β, quarter, head) = (t / 64, t / 16 mod 4, t mod 16):
  it reads query rows 512·quarter … 512·quarter + 511 of head `head` of batch entry β, and all keys and values of that
  head. The sixteen consecutive points of one group g = t / 16 share β and the quarter and run over the heads.

  Read at an entry: the attended-values block after point t holds Σ_k weights(r, k) · v[k, d] for that head; the
  averaged-weights block holds, after a head h < 15 of the group, the sum of the weights of the heads 0 … h (by
  induction along the group: the first head starts from the zero block, each later head adds to what the head before
  left), and after head 15 the sum over all sixteen heads times the f32 word of 1/16.
-/
import proofs.«111124_j74646531604978_2_alg».proof.Proof.Gen.KernelIdeal.Frame
import proofs.«111124_j74646531604978_2_alg».proof.Proof.Spec
import proofs.«111124_j74646531604978_2_alg».proof.Proof.AttnPieces
import proofs.«111124_j74646531604978_2_alg».proof.Proof.AttnBody
import Idealize.ShloMosaic.Lib.Pipeline.Value

noncomputable section
namespace Cert.Mha.AttnR
open Cert.KernelIdeal Cert.KernelIdeal.Gen Idealize.ShloMosaic Idealize.ShloMosaic.TcCoe Idealize.SL.Sem

open Idealize.ShloMosaic.ValueIdx Cert.Attn

variable (V : (c : Dev nD) → (b : Ref sig .tc) → Buf (Elt Ideal) ((c : Thread nD τ).loc b))

/-- The batch entry of group g (four groups per entry). -/
def gb (g : ℕ) : Fin 2 := ⟨g / 4 % 2, by omega⟩
/-- Query position: row r of quarter g mod 4. -/
def gq (g : ℕ) (r : Fin 512) : Fin 2048 := ⟨g % 4 * 512 + r.val, by omega⟩
/-- Head j. -/
def hd (j : ℕ) : Fin 16 := ⟨j % 16, by omega⟩

/-- The windows' block indices at point t, decided once over the grid. -/
theorem idx3 : ∀ t : Fin cfg3.N,
    win3_0.index t (0 : Fin 4) = t.val / 64 ∧ win3_0.index t (1 : Fin 4) = t.val % 16 ∧ win3_0.index t (2 : Fin 4) = t.val / 16 % 4 ∧ win3_0.index t (3 : Fin 4) = 0
    ∧ win3_1.index t (0 : Fin 4) = t.val / 64 ∧ win3_1.index t (1 : Fin 4) = t.val % 16 ∧ win3_1.index t (2 : Fin 4) = 0 ∧ win3_1.index t (3 : Fin 4) = 0
    ∧ win3_2.index t (0 : Fin 4) = t.val / 64 ∧ win3_2.index t (1 : Fin 4) = t.val % 16 ∧ win3_2.index t (2 : Fin 4) = 0 ∧ win3_2.index t (3 : Fin 4) = 0
    ∧ win3_3.index t (0 : Fin 4) = t.val / 64 ∧ win3_3.index t (1 : Fin 4) = t.val % 16 ∧ win3_3.index t (2 : Fin 4) = t.val / 16 % 4 ∧ win3_3.index t (3 : Fin 4) = 0
    ∧ win3_4.index t (0 : Fin 3) = t.val / 64 ∧ win3_4.index t (1 : Fin 3) = t.val / 16 % 4 ∧ win3_4.index t (2 : Fin 3) = 0 :=
  (by decide +kernel : ∀ t : Fin grid3.N, _)

/-- The query block at point t: rows of the quarter, of the point's head and batch entry. -/
theorem iblk0_apply (c : Dev nD) (t : Fin cfg3.N) (r : Fin 512) (d : Fin 64) :
    (iblk3 V c 0 t : Vec Ideal S1x1x512x64 .bf16) (ix4 (0 : Fin 1) (0 : Fin 1) r d)
      = V c main_v16 (ix4 (gb (t.val / 16)) (hd (t.val % 16)) (gq (t.val / 16) r) d) := by
  obtain ⟨e0, e1, e2, e3, -⟩ := idx3 t
  have hN : t.val < 128 := lt_of_lt_of_eq t.isLt (show cfg3.N = 128 from N_3)
  unfold iblk3
  rw [View.read_apply]
  show V c main_v16 (((cfg3.win 0).blk t).view.emb (ix4 (0 : Fin 1) (0 : Fin 1) r d)) = _
  refine congrArg (V c main_v16) ?_
  funext a; apply Fin.ext
  match a with
  | ⟨0, _⟩ => show win3_0.index t (0 : Fin 4) * 1 + 1 * 0 = t.val / 16 / 4 % 2; omega
  | ⟨1, _⟩ => show win3_0.index t (1 : Fin 4) * 1 + 1 * 0 = t.val % 16 % 16; omega
  | ⟨2, _⟩ => show win3_0.index t (2 : Fin 4) * 512 + 1 * r.val = t.val / 16 % 4 * 512 + r.val; omega
  | ⟨3, _⟩ => show win3_0.index t (3 : Fin 4) * 64 + 1 * d.val = d.val; omega

/-- The transposed-keys block at point t: all of the point's head and batch entry. -/
theorem iblk1_apply (c : Dev nD) (t : Fin cfg3.N) (d : Fin 64) (k : Fin 2048) :
    (iblk3 V c 1 t : Vec Ideal S1x1x64x2048 .bf16) (ix4 (0 : Fin 1) (0 : Fin 1) d k)
      = V c main_v18 (ix4 (gb (t.val / 16)) (hd (t.val % 16)) d k) := by
  obtain ⟨-, -, -, -, e0, e1, e2, e3, -⟩ := idx3 t
  have hN : t.val < 128 := lt_of_lt_of_eq t.isLt (show cfg3.N = 128 from N_3)
  unfold iblk3
  rw [View.read_apply]
  show V c main_v18 (((cfg3.win 1).blk t).view.emb (ix4 (0 : Fin 1) (0 : Fin 1) d k)) = _
  refine congrArg (V c main_v18) ?_
  funext a; apply Fin.ext
  match a with
  | ⟨0, _⟩ => show win3_1.index t (0 : Fin 4) * 1 + 1 * 0 = t.val / 16 / 4 % 2; omega
  | ⟨1, _⟩ => show win3_1.index t (1 : Fin 4) * 1 + 1 * 0 = t.val % 16 % 16; omega
  | ⟨2, _⟩ => show win3_1.index t (2 : Fin 4) * 64 + 1 * d.val = d.val; omega
  | ⟨3, _⟩ => show win3_1.index t (3 : Fin 4) * 2048 + 1 * k.val = k.val; omega

/-- The values block at point t: all of the point's head and batch entry. -/
theorem iblk2_apply (c : Dev nD) (t : Fin cfg3.N) (k : Fin 2048) (d : Fin 64) :
    (iblk3 V c 2 t : Vec Ideal S1x1x2048x64 .bf16) (ix4 (0 : Fin 1) (0 : Fin 1) k d)
      = V c main_v20 (ix4 (gb (t.val / 16)) (hd (t.val % 16)) k d) := by
  obtain ⟨-, -, -, -, -, -, -, -, e0, e1, e2, e3, -⟩ := idx3 t
  have hN : t.val < 128 := lt_of_lt_of_eq t.isLt (show cfg3.N = 128 from N_3)
  unfold iblk3
  rw [View.read_apply]
  show V c main_v20 (((cfg3.win 2).blk t).view.emb (ix4 (0 : Fin 1) (0 : Fin 1) k d)) = _
  refine congrArg (V c main_v20) ?_
  funext a; apply Fin.ext
  match a with
  | ⟨0, _⟩ => show win3_2.index t (0 : Fin 4) * 1 + 1 * 0 = t.val / 16 / 4 % 2; omega
  | ⟨1, _⟩ => show win3_2.index t (1 : Fin 4) * 1 + 1 * 0 = t.val % 16 % 16; omega
  | ⟨2, _⟩ => show win3_2.index t (2 : Fin 4) * 2048 + 1 * k.val = k.val; omega
  | ⟨3, _⟩ => show win3_2.index t (3 : Fin 4) * 64 + 1 * d.val = d.val; omega

/-- The attention weights of head j of group g at (row r of the quarter, key k). -/
def wts (c : Dev nD) (g j : ℕ) (r : Fin 512) (k : Fin 2048) : EReal :=
  Cert.Mha.attnA (V c main_v16) (V c main_v18) (gb g) (hd j) (gq g r) k

/-- The body's weights at point t are the weights of the point's head. -/
theorem pay3_point (c : Dev nD) (t : Fin cfg3.N) (r : Fin 512) (k : Fin 2048) :
    k3_pay3 (F := Ideal) (iblk3 V c 0 t) (iblk3 V c 1 t) (ix2 r k) = wts V c (t.val / 16) (t.val % 16) r k := by
  refine (pay3_apply (iblk3 V c 0 t) (iblk3 V c 1 t) r k).trans ?_
  unfold wts Cert.Mha.attnA
  refine congrArg (fun f => softmaxRow f k) ?_
  funext k'
  unfold blkScore Cert.Mha.scoreA
  refine Finset.sum_congr rfl fun d _ => ?_
  exact congrArg₂ (· * ·) (iblk0_apply V c t r d) (iblk1_apply V c t d k')

/-- The body's attended values at point t. -/
theorem pay4_point (c : Dev nD) (t : Fin cfg3.N) (r : Fin 512) (d : Fin 64) :
    k3_pay4 (F := Ideal) (iblk3 V c 0 t) (iblk3 V c 1 t) (iblk3 V c 2 t) (ix4 (0 : Fin 1) (0 : Fin 1) r d)
      = ∑ k : Fin 2048, wts V c (t.val / 16) (t.val % 16) r k * V c main_v20 (ix4 (gb (t.val / 16)) (hd (t.val % 16)) k d) := by
  refine (pay4_apply (iblk3 V c 0 t) (iblk3 V c 1 t) (iblk3 V c 2 t) 0 0 r d).trans ?_
  refine Finset.sum_congr rfl fun k _ => ?_
  exact congrArg₂ (· * ·) (pay3_point V c t r k) (iblk2_apply V c t k d)

/-- THE ATTENDED VALUES after point t, whatever its case. -/
theorem ctx_point (c : Dev nD) (t : Fin cfg3.N) (r : Fin 512) (d : Fin 64) :
    (outsAt3 V c t.val t.isLt).1 (ix4 (0 : Fin 1) (0 : Fin 1) r d)
      = ∑ k : Fin 2048, wts V c (t.val / 16) (t.val % 16) r k * V c main_v20 (ix4 (gb (t.val / 16)) (hd (t.val % 16)) k d) := by
  by_cases h0 : t.val % 16 = 0
  · have h1 : ¬t.val % 16 = 15 := by omega
    rw [outsAt3_A V c t h0 h1]
    dsimp only
    rw [out_A_3 (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (fun h => h1 ((hcond3_1 t).mp h)) (iblk3 V c 0 t) (iblk3 V c 1 t) (iblk3 V c 2 t)]
    exact pay4_point V c t r d
  · by_cases h1 : t.val % 16 = 15
    · rw [outsAt3_C V c t h0 h1]
      dsimp only
      rw [out_C_3 (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2]
      exact pay4_point V c t r d
    · rw [outsAt3_B V c t h0 h1]
      dsimp only
      rw [out_B_3 (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2]
      exact pay4_point V c t r d

/-- First head of a group: the block holds that head's weights (zero plus them). -/
theorem acc_A (c : Dev nD) (t : Fin cfg3.N) (h0 : t.val % 16 = 0) (r : Fin 512) (k : Fin 2048) :
    (outsAt3 V c t.val t.isLt).2 (ix3 (0 : Fin 1) r k) = wts V c (t.val / 16) (t.val % 16) r k := by
  have h1 : ¬t.val % 16 = 15 := by omega
  rw [outsAt3_A V c t h0 h1]
  dsimp only
  rw [out_A_4 (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (fun h => h1 ((hcond3_1 t).mp h)) (iblk3 V c 0 t) (iblk3 V c 1 t) (iblk3 V c 2 t)]
  refine (pay1_apply _ 0 r k).trans ?_
  refine (pay6_apply (iblk3 V c 0 t) (iblk3 V c 1 t) _ r k).trans ?_
  rw [pay5_apply, Ideal.ofBits_zero_f32, zero_add]
  exact pay3_point V c t r k

/-- A middle head: what the head before left plus this head's weights. -/
theorem acc_B (c : Dev nD) (t : Fin cfg3.N) (h0 : ¬t.val % 16 = 0) (h1 : ¬t.val % 16 = 15) (r : Fin 512) (k : Fin 2048) :
    (outsAt3 V c t.val t.isLt).2 (ix3 (0 : Fin 1) r k)
      = (outsAt3 V c (t.val - 1) (Nat.lt_of_le_of_lt (Nat.sub_le _ _) t.isLt)).2 (ix3 (0 : Fin 1) r k) + wts V c (t.val / 16) (t.val % 16) r k := by
  rw [outsAt3_B V c t h0 h1]
  dsimp only
  rw [out_B_4 (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2]
  refine (pay1_apply _ 0 r k).trans ?_
  refine (pay6_apply (iblk3 V c 0 t) (iblk3 V c 1 t) _ r k).trans ?_
  exact congrArg ((outsAt3 V c (t.val - 1) (Nat.lt_of_le_of_lt (Nat.sub_le _ _) t.isLt)).2 (ix3 (0 : Fin 1) r k) + ·) (pay3_point V c t r k)

/-- The last head: as a middle head, then scaled. -/
theorem acc_C (c : Dev nD) (t : Fin cfg3.N) (h0 : ¬t.val % 16 = 0) (h1 : t.val % 16 = 15) (r : Fin 512) (k : Fin 2048) :
    (outsAt3 V c t.val t.isLt).2 (ix3 (0 : Fin 1) r k)
      = ((outsAt3 V c (t.val - 1) (Nat.lt_of_le_of_lt (Nat.sub_le _ _) t.isLt)).2 (ix3 (0 : Fin 1) r k) + wts V c (t.val / 16) (t.val % 16) r k) * Ideal.ofBits .f32 0x3D800000#32 := by
  rw [outsAt3_C V c t h0 h1]
  dsimp only
  rw [out_C_4 (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2]
  refine (pay2_apply _ 0 r k).trans ?_
  refine congrArg (· * Ideal.ofBits .f32 0x3D800000#32) ?_
  refine (pay1_apply _ 0 r k).trans ?_
  refine (pay6_apply (iblk3 V c 0 t) (iblk3 V c 1 t) _ r k).trans ?_
  exact congrArg ((outsAt3 V c (t.val - 1) (Nat.lt_of_le_of_lt (Nat.sub_le _ _) t.isLt)).2 (ix3 (0 : Fin 1) r k) + ·) (pay3_point V c t r k)

/-- THE RUNNING SUM: after head h < 15 of a group the block holds the weights of heads 0 … h, summed. -/
theorem acc_partial (c : Dev nD) : ∀ (n : ℕ) (hn : n < cfg3.N), n % 16 ≠ 15 → ∀ (r : Fin 512) (k : Fin 2048),
    (outsAt3 V c n hn).2 (ix3 (0 : Fin 1) r k) = ∑ j ∈ Finset.range (n % 16 + 1), wts V c (n / 16) j r k := by
  intro n
  induction n with
  | zero =>
    intro hn _ r k
    refine (acc_A V c ⟨0, hn⟩ rfl r k).trans ?_
    show wts V c (0 / 16) (0 % 16) r k = ∑ j ∈ Finset.range (0 % 16 + 1), wts V c (0 / 16) j r k
    rw [Finset.sum_range_succ, Finset.sum_range_zero, zero_add]
  | succ n ih =>
    intro hn h1 r k
    by_cases h0 : (n + 1) % 16 = 0
    · refine (acc_A V c ⟨n + 1, hn⟩ h0 r k).trans ?_
      show wts V c ((n + 1) / 16) ((n + 1) % 16) r k = _
      rw [h0, Finset.sum_range_succ, Finset.sum_range_zero, zero_add]
    · refine (acc_B V c ⟨n + 1, hn⟩ h0 h1 r k).trans ?_
      show (outsAt3 V c n (Nat.lt_of_succ_lt hn)).2 (ix3 (0 : Fin 1) r k) + wts V c ((n + 1) / 16) ((n + 1) % 16) r k = _
      rw [ih (Nat.lt_of_succ_lt hn) (by omega) r k]
      have e1 : (n + 1) / 16 = n / 16 := by omega
      have e2 : (n + 1) % 16 = n % 16 + 1 := by omega
      rw [e1, e2, Finset.sum_range_succ (fun j => wts V c (n / 16) j r k) (n % 16 + 1)]

/-- THE AVERAGED WEIGHTS after the last head of a group: the sum over all sixteen heads, times 1/16. -/
theorem acc_last (c : Dev nD) (t : Fin cfg3.N) (h1 : t.val % 16 = 15) (r : Fin 512) (k : Fin 2048) :
    (outsAt3 V c t.val t.isLt).2 (ix3 (0 : Fin 1) r k)
      = (∑ j ∈ Finset.range 16, wts V c (t.val / 16) j r k) * Ideal.ofBits .f32 0x3D800000#32 := by
  have h0 : ¬t.val % 16 = 0 := by omega
  refine (acc_C V c t h0 h1 r k).trans ?_
  refine congrArg (· * Ideal.ofBits .f32 0x3D800000#32) ?_
  rw [acc_partial V c (t.val - 1) (Nat.lt_of_le_of_lt (Nat.sub_le _ _) t.isLt) (by omega) r k]
  have e1 : (t.val - 1) / 16 = t.val / 16 := by omega
  have e2 : (t.val - 1) % 16 + 1 = 15 := by omega
  rw [e1, e2, h1, Finset.sum_range_succ (fun j => wts V c (t.val / 16) j r k) 15]

end Cert.Mha.AttnR
end
-- ==== Proof.AttnRegion.lean ====
/-
  The two arrays the attention region leaves.

  Attended values [2, 16, 2048, 64]: point (β, quarter, head) writes back its own block — rows 512·quarter … of head
  `head` of batch entry β — after every point, and the 128 blocks tile the array; entry (β, h, q, d) lies in the block
  of the point (β, q / 512, h), which holds Σ_k weights · values there.

  Averaged weights [2, 2048, 2048]: the block of (β, quarter) is revisited by the sixteen heads and written back only
  after the last one, when it holds the sum of the sixteen heads' weights times the f32 word of 1/16; the eight blocks
  tile the array, entry (β, q, k) lying in the block written back at the point (β, q / 512, 15).
-/
import proofs.«111124_j74646531604978_2_alg».proof.Proof.Gen.KernelIdeal.Frame
import proofs.«111124_j74646531604978_2_alg».proof.Proof.Spec
import proofs.«111124_j74646531604978_2_alg».proof.Proof.AttnPoints
import Idealize.ShloMosaic.Lib.Pipeline.Value

noncomputable section
namespace Cert.Mha.AttnR
open Cert.KernelIdeal Cert.KernelIdeal.Gen Idealize.ShloMosaic Idealize.ShloMosaic.TcCoe Idealize.SL.Sem

open Idealize.ShloMosaic.ValueIdx Cert.Attn
open Idealize.ShloMosaic.Pipeline (Dat)

variable (V : (c : Dev nD) → (b : Ref sig .tc) → Buf (Elt Ideal) ((c : Thread nD τ).loc b))

/-- Where an entry of the attended-values block of point t sits in the array. -/
theorem blk3_read (t : Fin cfg3.N) (G : Cert.Mha.BHSD.Idx → EReal) (r : Fin 512) (d : Fin 64) :
    ((cfg3.win 3).blk t).view.read (Elt Ideal) G (ix4 (0 : Fin 1) (0 : Fin 1) r d)
      = G (ix4 (gb (t.val / 16)) (hd (t.val % 16)) (gq (t.val / 16) r) d) := by
  obtain ⟨-, -, -, -, -, -, -, -, -, -, -, -, e0, e1, e2, e3, -⟩ := idx3 t
  have hN : t.val < 128 := lt_of_lt_of_eq t.isLt (show cfg3.N = 128 from N_3)
  rw [View.read_apply]
  refine congrArg G ?_
  funext a; apply Fin.ext
  match a with
  | ⟨0, _⟩ => show win3_3.index t (0 : Fin 4) * 1 + 1 * 0 = t.val / 16 / 4 % 2; omega
  | ⟨1, _⟩ => show win3_3.index t (1 : Fin 4) * 1 + 1 * 0 = t.val % 16 % 16; omega
  | ⟨2, _⟩ => show win3_3.index t (2 : Fin 4) * 512 + 1 * r.val = t.val / 16 % 4 * 512 + r.val; omega
  | ⟨3, _⟩ => show win3_3.index t (3 : Fin 4) * 64 + 1 * d.val = d.val; omega

/-- Where an entry of the averaged-weights block of point t sits in the array. -/
theorem blk4_read (t : Fin cfg3.N) (G : Cert.Mha.BSS.Idx → EReal) (r : Fin 512) (k : Fin 2048) :
    ((cfg3.win 4).blk t).view.read (Elt Ideal) G (ix3 (0 : Fin 1) r k)
      = G (ix3 (gb (t.val / 16)) (gq (t.val / 16) r) k) := by
  obtain ⟨-, -, -, -, -, -, -, -, -, -, -, -, -, -, -, -, e0, e1, e2⟩ := idx3 t
  have hN : t.val < 128 := lt_of_lt_of_eq t.isLt (show cfg3.N = 128 from N_3)
  rw [View.read_apply]
  refine congrArg G ?_
  funext a; apply Fin.ext
  match a with
  | ⟨0, _⟩ => show win3_4.index t (0 : Fin 3) * 1 + 1 * 0 = t.val / 16 / 4 % 2; omega
  | ⟨1, _⟩ => show win3_4.index t (1 : Fin 3) * 512 + 1 * r.val = t.val / 16 % 4 * 512 + r.val; omega
  | ⟨2, _⟩ => show win3_4.index t (2 : Fin 3) * 2048 + 1 * k.val = k.val; omega

/-- What point t writes back to the attended values is its block of the array of attended values. -/
theorem flushed3_eq (c : Dev nD) (t : Fin cfg3.N) :
    (dat3 (F := Ideal) V c).flushed 3 t
      = ((cfg3.win 3).blk t).view.read (Elt Ideal) (Cert.Mha.ctxArr (V c main_v16) (V c main_v18) (V c main_v20)) := by
  show (cfg3.win 3).cut (grid3.coords t) ((dat3 V c).after 3 t) = _
  rw [after3_3]
  funext y
  obtain ⟨u, w, r, d, rfl⟩ : ∃ (u w : Fin 1) (r : Fin 512) (d : Fin 64), y = ix4 u w r d := ⟨y 0, y 1, y 2, y 3, eq_ix4 y⟩
  obtain rfl : u = 0 := Subsingleton.elim _ _
  obtain rfl : w = 0 := Subsingleton.elim _ _
  refine Eq.trans ?_ (blk3_read t _ r d).symm
  show (outsAt3 V c t.val t.isLt).1 (ix4 (0 : Fin 1) (0 : Fin 1) r d) = _
  exact ctx_point V c t r d

/-- What the last head of a group writes back to the averaged weights is its block of the array of averaged weights. -/
theorem flushed4_eq (c : Dev nD) (t : Fin cfg3.N) (hf : (cfg3.win 4).flush t = true) :
    (dat3 (F := Ideal) V c).flushed 4 t
      = ((cfg3.win 4).blk t).view.read (Elt Ideal) (Cert.Mha.avgArr (V c main_v16) (V c main_v18)) := by
  have h1 : t.val % 16 = 15 := (flush3_4 t).mp hf
  show (cfg3.win 4).cut (grid3.coords t) ((dat3 V c).after 4 t) = _
  rw [after3_4]
  funext y
  obtain ⟨u, r, k, rfl⟩ : ∃ (u : Fin 1) (r : Fin 512) (k : Fin 2048), y = ix3 u r k := ⟨y 0, y 1, y 2, eq_ix3 y⟩
  obtain rfl : u = 0 := Subsingleton.elim _ _
  refine Eq.trans ?_ (blk4_read t _ r k).symm
  show (outsAt3 V c t.val t.isLt).2 (ix3 (0 : Fin 1) r k) = _
  refine (acc_last V c t h1 r k).trans ?_
  unfold Cert.Mha.avgArr
  refine congrArg (· * Ideal.ofBits .f32 0x3D800000#32) ?_
  rw [← Fin.sum_univ_eq_sum_range (fun j => wts V c (t.val / 16) j r k) 16]
  refine Finset.sum_congr rfl fun h _ => ?_
  have eh : hd h.val = h := Fin.ext (Nat.mod_eq_of_lt h.isLt)
  unfold wts
  rw [eh]

/-- An index of the attended-values array is in point t's block iff each coordinate is in the block's range. -/
theorem mem_blk3 (t : Fin cfg3.N) (i : Cert.Mha.BHSD.Idx) :
    i ∈ ((cfg3.win 3).blk t).view.set ↔ ∀ a : Fin 4, win3_3.index t a * S1x1x512x64.size a ≤ (i a).val ∧ (i a).val < win3_3.index t a * S1x1x512x64.size a + S1x1x512x64.size a := by
  show i ∈ ((View.whole main_v21_0).slice (win3_3.rect t)).set ↔ _
  rw [View.set_slice_whole, Rect.mem_set_unit]
  exact Iff.rfl

/-- An index of the averaged-weights array is in point t's block iff each coordinate is in the block's range. -/
theorem mem_blk4 (t : Fin cfg3.N) (i : Cert.Mha.BSS.Idx) :
    i ∈ ((cfg3.win 4).blk t).view.set ↔ ∀ a : Fin 3, win3_4.index t a * S1x512x2048.size a ≤ (i a).val ∧ (i a).val < win3_4.index t a * S1x512x2048.size a + S1x512x2048.size a := by
  show i ∈ ((View.whole main_v21_1).slice (win3_4.rect t)).set ↔ _
  rw [View.set_slice_whole, Rect.mem_set_unit]
  exact Iff.rfl

/-- Entry (β, h, q, d) is written back by the point (β, q / 512, h). -/
theorem cover3 (i : Cert.Mha.BHSD.Idx) :
    ∃ t : Fin cfg3.N, (cfg3.win 3).flush t = true ∧ i ∈ ((cfg3.win 3).blk t).view.set := by
  have h0 : (i 0).val < 2 := (i 0).isLt
  have h1 : (i 1).val < 16 := (i 1).isLt
  have h2 : (i 2).val < 2048 := (i 2).isLt
  have h3 : (i 3).val < 64 := (i 3).isLt
  obtain ⟨tv, htv⟩ : ∃ tv : ℕ, tv = ((i 0).val * 4 + (i 2).val / 512) * 16 + (i 1).val := ⟨_, rfl⟩
  have ht : tv < cfg3.N := by rw [show cfg3.N = 128 from N_3]; omega
  obtain ⟨-, -, -, -, -, -, -, -, -, -, -, -, e0, e1, e2, e3, -⟩ := idx3 ⟨tv, ht⟩
  have e0' : win3_3.index ⟨tv, ht⟩ (0 : Fin 4) = tv / 64 := e0
  have e1' : win3_3.index ⟨tv, ht⟩ (1 : Fin 4) = tv % 16 := e1
  have e2' : win3_3.index ⟨tv, ht⟩ (2 : Fin 4) = tv / 16 % 4 := e2
  have e3' : win3_3.index ⟨tv, ht⟩ (3 : Fin 4) = 0 := e3
  refine ⟨⟨tv, ht⟩, flush3_3 _, ?_⟩
  rw [mem_blk3]
  intro a
  match a with
  | ⟨0, _⟩ => show win3_3.index ⟨tv, ht⟩ (0 : Fin 4) * 1 ≤ (i 0).val ∧ (i 0).val < win3_3.index ⟨tv, ht⟩ (0 : Fin 4) * 1 + 1; omega
  | ⟨1, _⟩ => show win3_3.index ⟨tv, ht⟩ (1 : Fin 4) * 1 ≤ (i 1).val ∧ (i 1).val < win3_3.index ⟨tv, ht⟩ (1 : Fin 4) * 1 + 1; omega
  | ⟨2, _⟩ => show win3_3.index ⟨tv, ht⟩ (2 : Fin 4) * 512 ≤ (i 2).val ∧ (i 2).val < win3_3.index ⟨tv, ht⟩ (2 : Fin 4) * 512 + 512; omega
  | ⟨3, _⟩ => show win3_3.index ⟨tv, ht⟩ (3 : Fin 4) * 64 ≤ (i 3).val ∧ (i 3).val < win3_3.index ⟨tv, ht⟩ (3 : Fin 4) * 64 + 64; omega

/-- Entry (β, q, k) is written back by the last head's point (β, q / 512, 15). -/
theorem cover4 (i : Cert.Mha.BSS.Idx) :
    ∃ t : Fin cfg3.N, (cfg3.win 4).flush t = true ∧ i ∈ ((cfg3.win 4).blk t).view.set := by
  have h0 : (i 0).val < 2 := (i 0).isLt
  have h1 : (i 1).val < 2048 := (i 1).isLt
  have h2 : (i 2).val < 2048 := (i 2).isLt
  obtain ⟨tv, htv⟩ : ∃ tv : ℕ, tv = ((i 0).val * 4 + (i 1).val / 512) * 16 + 15 := ⟨_, rfl⟩
  have ht : tv < cfg3.N := by rw [show cfg3.N = 128 from N_3]; omega
  obtain ⟨-, -, -, -, -, -, -, -, -, -, -, -, -, -, -, -, e0, e1, e2⟩ := idx3 ⟨tv, ht⟩
  have e0' : win3_4.index ⟨tv, ht⟩ (0 : Fin 3) = tv / 64 := e0
  have e1' : win3_4.index ⟨tv, ht⟩ (1 : Fin 3) = tv / 16 % 4 := e1
  have e2' : win3_4.index ⟨tv, ht⟩ (2 : Fin 3) = 0 := e2
  refine ⟨⟨tv, ht⟩, (flush3_4 _).mpr (by show tv % 16 = 15; omega), ?_⟩
  rw [mem_blk4]
  intro a
  match a with
  | ⟨0, _⟩ => show win3_4.index ⟨tv, ht⟩ (0 : Fin 3) * 1 ≤ (i 0).val ∧ (i 0).val < win3_4.index ⟨tv, ht⟩ (0 : Fin 3) * 1 + 1; omega
  | ⟨1, _⟩ => show win3_4.index ⟨tv, ht⟩ (1 : Fin 3) * 512 ≤ (i 1).val ∧ (i 1).val < win3_4.index ⟨tv, ht⟩ (1 : Fin 3) * 512 + 512; omega
  | ⟨2, _⟩ => show win3_4.index ⟨tv, ht⟩ (2 : Fin 3) * 2048 ≤ (i 2).val ∧ (i 2).val < win3_4.index ⟨tv, ht⟩ (2 : Fin 3) * 2048 + 2048; omega

/-- THE ATTENDED VALUES: after the region the array holds, at (β, h, q, d), Σ_k softmax(scores of q)[k] · v[β, h, k, d]. -/
theorem arr3_ctx (V : (c : Dev nD) → (b : Ref sig .tc) → Buf (Elt Ideal) ((c : Thread nD τ).loc b)) (c : Dev nD) :
    (dat3 (F := Ideal) V c).arrAt 3 cfg3.N = Cert.Mha.ctxArr (V c main_v16) (V c main_v18) (V c main_v20) :=
  (dat3 (F := Ideal) V c).arrAt_eq_of_cover 3 (Cert.Mha.ctxArr (V c main_v16) (V c main_v18) (V c main_v20))
    (fun t _ => flushed3_eq V c t) cover3

/-- THE AVERAGED WEIGHTS: after the region the array holds, at (β, q, k), the sum over the heads of the weights times 1/16. -/
theorem arr3_avg (V : (c : Dev nD) → (b : Ref sig .tc) → Buf (Elt Ideal) ((c : Thread nD τ).loc b)) (c : Dev nD) :
    (dat3 (F := Ideal) V c).arrAt 4 cfg3.N = Cert.Mha.avgArr (V c main_v16) (V c main_v18) :=
  (dat3 (F := Ideal) V c).arrAt_eq_of_cover 4 (Cert.Mha.avgArr (V c main_v16) (V c main_v18))
    (fun t hf => flushed4_eq V c t hf) cover4

end Cert.Mha.AttnR
end
-- ==== Proof.KernelValue.lean ====
/-
  The idealized kernel program's run with its results as functions of the arguments: every weakly fair execution
  terminates without a fault, the first result holding the output projection of the attended values and the second the
  attention weights averaged over the heads — multi-head attention of the eleven argument arrays on the extended
  reals —, the arguments unchanged. The run with the results at the last boundary's contents, composed with what the
  five tiled kernels leave in their output arrays.
-/
import proofs.«111124_j74646531604978_2_alg».proof.Proof.KernelRun
import proofs.«111124_j74646531604978_2_alg».proof.Proof.Compose
import proofs.«111124_j74646531604978_2_alg».proof.Proof.LinearRegion
import proofs.«111124_j74646531604978_2_alg».proof.Proof.AttnRegion

set_option maxRecDepth 16384

noncomputable section

namespace Cert.KernelIdeal.Named

open Cert.KernelIdeal Cert.KernelIdeal.Gen
open Idealize.ShloMosaic Idealize.ShloMosaic.TcCoe Idealize.SL.Sem

/-- The kernel program's run, its two results named as functions of the arguments. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28) = Cert.Mha.Zarr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread nD τ).loc main_v21_1) = Cert.Mha.AvgArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c =>
    ⟨(h c).1.trans (Compose.kernel_Z m ρ c Cert.Mha.Lin.arr0 Cert.Mha.Lin.arr1 Cert.Mha.Lin.arr2 Cert.Mha.AttnR.arr3_ctx Cert.Mha.Lin.arr4),
     (h c).2.1.trans (Compose.kernel_avg m ρ c Cert.Mha.Lin.arr0 Cert.Mha.Lin.arr1 Cert.Mha.AttnR.arr3_avg),
     (h c).2.2⟩) (run (F := Ideal) m ρ)

end Cert.KernelIdeal.Named

end
-- ==== Proof.lean ====
/-
  The certificate of a tiled multi-head attention program against its plain reference, on the extended reals.

  Both programs compute, from query, key and value arrays [2048, 2, 1024] and four weight matrices with their biases:
  three linear layers (the query one scaled by 1/8), per batch entry and head the row softmax of the scores
  Q · Kᵀ, the attended values softmax · V, their output linear layer Z, and the attention weights averaged over the 16
  heads. The tiled program does it in five pipelined matrix kernels among host re-layings (flattening [2048, 2] to 4096
  rows, splitting the features into heads, head-major permutations), the fourth accumulating the head average in its
  output block over the 16 consecutive grid points of a head group and scaling by 1/16 at the last; the reference in
  plain array operations, dividing the head sum by 16. At the ideal values changes of float format are the identity, a
  matrix product into a zero accumulator is the plain sum over the contracted coordinate, and 0.125, 1.0, 16.0 and
  0.0625 are exact, so both sides are ONE function of the arguments, entry by entry: the sums are matched term by term,
  x · 1 = x, and x · (1/16) = x / 16 on every extended real. No entry needs to be finite, so the precondition is not
  opened. The three frames are the generated ones (the reference's from its generated run); the idealization rewrote
  nothing, so it preserves trivially.
-/
import proofs.«111124_j74646531604978_2_alg».proof.Defs
import proofs.«111124_j74646531604978_2_alg».proof.Proof.Gen.Kernel
import proofs.«111124_j74646531604978_2_alg».proof.Proof.Gen.Kernel.Skeleton
import proofs.«111124_j74646531604978_2_alg».proof.Proof.Gen.Kernel.Launch
import proofs.«111124_j74646531604978_2_alg».proof.Proof.Gen.Kernel.Points
import proofs.«111124_j74646531604978_2_alg».proof.Proof.Gen.Kernel.Frame
import proofs.«111124_j74646531604978_2_alg».proof.Proof.Gen.KernelIdeal
import proofs.«111124_j74646531604978_2_alg».proof.Proof.Gen.KernelIdeal.Skeleton
import proofs.«111124_j74646531604978_2_alg».proof.Proof.Gen.KernelIdeal.Launch
import proofs.«111124_j74646531604978_2_alg».proof.Proof.Gen.KernelIdeal.Points
import proofs.«111124_j74646531604978_2_alg».proof.Proof.Gen.KernelIdeal.Frame
import proofs.«111124_j74646531604978_2_alg».proof.Proof.Gen.ReferenceIdeal
import proofs.«111124_j74646531604978_2_alg».proof.Proof.Gen.Pre_finite_inputs
import proofs.«111124_j74646531604978_2_alg».proof.Proof.Gen.ReferenceIdeal.Run
import proofs.«111124_j74646531604978_2_alg».proof.Proof.Gen.ReferenceIdeal.Read
import proofs.«111124_j74646531604978_2_alg».proof.Proof.RefSide
import proofs.«111124_j74646531604978_2_alg».proof.Proof.KernelValue
import Idealize.ShloMosaic.Adequacy
import Idealize.ShloMosaic.Init

noncomputable section

namespace Cert.Proof

open Idealize.ShloMosaic Idealize.SL.Sem

/-- Both idealized programs, from memories agreeing on the arguments, end with the same two results: multi-head
    attention of the arguments (the kernel's run composed from its five tiled kernels; the reference's generated run read
    operation by operation). -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Mha.Zarr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Mha.AvgArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Named.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v38_eq, Cert.Mha.Ref.ref_Z, e0, e1, e2, e3, e4, e5, e6, e7, e8, e9, e10]
  · obtain ⟨e0, e1, e2, e3, e4, e5, e6, e7, e8, e9, e10⟩ := hagree c
    rw [Cert.ReferenceIdeal.Read.val_main_v42_eq, Cert.Mha.Ref.ref_avg, e0, e1, e3, e4, e5, e6]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2)
      (Cert.ReferenceIdeal.Value.run (F := Ideal) m ρ),
    trivial,
    algebraic⟩

end Cert.Proof

end
